-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_arg16 : FVec F S256x128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg16
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  main_v78

def fn_part3 {F : FTy → Type} [FloatOps F] (main_arg12 : FVec F S256 .f32) (main_arg13 : FVec F S256 .f32) (main_arg14 : FVec F S256x128 .f32) (main_arg15 : FVec F S128 .f32) (main_arg16 : FVec F S256x128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_v63 main_v67

def fn_part2 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256x128 .f32) (main_arg15 : FVec F S128 .f32) (main_arg16 : FVec F S256x128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_v48 main_v49 main_v50

def fn_part1 {F : FTy → Type} [FloatOps F] (main_arg5 : FVec F S256 .f32) (main_arg6 : FVec F S256 .f32) (main_arg7 : FVec F S128x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256x128 .f32) (main_arg15 : FVec F S128 .f32) (main_arg16 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x640000 32) (main_arg2 : FVec F S128x256 .f32) (main_arg3 : FVec F S256 .f32) (main_arg4 : FVec F S128x256 .f32) (main_arg5 : FVec F S256 .f32) (main_arg6 : FVec F S256 .f32) (main_arg7 : FVec F S128x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256x128 .f32) (main_arg15 : FVec F S128 .f32) (main_arg16 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S640000x256 : Shape := ⟨2, ![640000, 256]⟩
abbrev S1x128 : Shape := ⟨2, ![1, 128]⟩

abbrev nBuf : Space → Nat
  | .hbm => 114
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S256x128, .f32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .f32⟩
  | .hbm, ⟨31, _⟩ => ⟨S50000x128, .f32⟩
  | .hbm, ⟨32, _⟩ => ⟨S640000x1, .i32⟩
  | .hbm, ⟨33, _⟩ => ⟨S50000x128, .f32⟩
  | .hbm, ⟨34, _⟩ => ⟨S_, .f32⟩
  | .hbm, ⟨35, _⟩ => ⟨S640000, .f32⟩
  | .hbm, ⟨36, _⟩ => ⟨S_, .f32⟩
  | .hbm, ⟨37, _⟩ => ⟨S50000, .f32⟩
  | .hbm, ⟨38, _⟩ => ⟨S640000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S128x256, .bf16⟩
  | .hbm, ⟨47, _⟩ => ⟨S128x256, .bf16⟩
  | .hbm, ⟨48, _⟩ => ⟨S128x256, .bf16⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S50000x256, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x256, .f32⟩
  | .hbm, ⟨63, _⟩ => ⟨S_, .f32⟩
  | .hbm, ⟨64, _⟩ => ⟨S50000x256, .f32⟩
  | .hbm, ⟨65, _⟩ => ⟨S640000x1, .i32⟩
  | .hbm, ⟨66, _⟩ => ⟨S50000x256, .f32⟩
  | .hbm, ⟨67, _⟩ => ⟨S_, .f32⟩
  | .hbm, ⟨68, _⟩ => ⟨S640000, .f32⟩
  | .hbm, ⟨69, _⟩ => ⟨S_, .f32⟩
  | .hbm, ⟨70, _⟩ => ⟨S50000, .f32⟩
  | .hbm, ⟨71, _⟩ => ⟨S640000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x256, .f32⟩
  | .hbm, ⟨78, _⟩ => ⟨S50000x256, .f32⟩
  | .hbm, ⟨79, _⟩ => ⟨S256x256, .bf16⟩
  | .hbm, ⟨80, _⟩ => ⟨S256x256, .bf16⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S50000x256, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x256, .f32⟩
  | .hbm, ⟨94, _⟩ => ⟨S_, .f32⟩
  | .hbm, ⟨95, _⟩ => ⟨S50000x256, .f32⟩
  | .hbm, ⟨96, _⟩ => ⟨S640000x1, .i32⟩
  | .hbm, ⟨97, _⟩ => ⟨S50000x256, .f32⟩
  | .hbm, ⟨98, _⟩ => ⟨S_, .f32⟩
  | .hbm, ⟨99, _⟩ => ⟨S640000, .f32⟩
  | .hbm, ⟨100, _⟩ => ⟨S_, .f32⟩
  | .hbm, ⟨101, _⟩ => ⟨S50000, .f32⟩
  | .hbm, ⟨102, _⟩ => ⟨S640000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x256, .f32⟩
  | .hbm, ⟨109, _⟩ => ⟨S50000x256, .f32⟩
  | .hbm, ⟨110, _⟩ => ⟨S256x128, .bf16⟩
  | .hbm, ⟨111, _⟩ => ⟨S256x128, .bf16⟩
  | .hbm, ⟨112, _⟩ => ⟨S1x128, .f32⟩
  | .hbm, ⟨113, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S1x256, .f32⟩
  | .local _ .vmem, ⟨8, _⟩ => ⟨S1x256, .f32⟩
  | .local _ .vmem, ⟨9, _⟩ => ⟨S128x256, .bf16⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x128, .bf16⟩
  | .local _ .vmem, ⟨29, _⟩ => ⟨S1x128, .f32⟩
  | .local _ .vmem, ⟨30, _⟩ => ⟨S256x128, .bf16⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x256_S2000x256_1_0_0_1_n_n_wf : DotDims.WF S2000x128 S128x256 S2000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .bf16 = 32 ∨ (Rect.block (s := S256x128) S256x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v74) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S2x640000, .i32⟩
  | 2 => ⟨S128x256, .f32⟩
  | 3 => ⟨S256, .f32⟩
  | 4 => ⟨S128x256, .f32⟩
  | 5 => ⟨S256, .f32⟩
  | 6 => ⟨S256, .f32⟩
  | 7 => ⟨S128x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256x128, .f32⟩
  | 15 => ⟨S128, .f32⟩
  | 16 => ⟨S256x128, .f32⟩
  | 17 => ⟨S1x640000, .i32⟩
  | 18 => ⟨S640000, .i32⟩
  | 19 => ⟨S1x640000, .i32⟩
  | 20 => ⟨S640000, .i32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S_, .f32⟩
  | 31 => ⟨S50000x128, .f32⟩
  | 32 => ⟨S640000x1, .i32⟩
  | 33 => ⟨S50000x128, .f32⟩
  | 34 => ⟨S_, .f32⟩
  | 35 => ⟨S640000, .f32⟩
  | 36 => ⟨S_, .f32⟩
  | 37 => ⟨S50000, .f32⟩
  | 38 => ⟨S640000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x256, .f32⟩
  | 47 => ⟨S1x256, .f32⟩
  | 48 => ⟨S50000x256, .f32⟩
  | 49 => ⟨S50000x256, .f32⟩
  | 50 => ⟨S50000x256, .f32⟩
  | 51 => ⟨S50000x256, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x256, .f32⟩
  | 59 => ⟨S50000x256, .f32⟩
  | 60 => ⟨S50000x256, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x256, .f32⟩
  | 68 => ⟨S50000x256, .f32⟩
  | 69 => ⟨S_, .f32⟩
  | 70 => ⟨S50000x1, .f32⟩
  | 71 => ⟨S50000x1, .f32⟩
  | 72 => ⟨S50000x1, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S50000x256, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x256, .f32⟩
  | 98 => ⟨S_, .f32⟩
  | 99 => ⟨S50000x256, .f32⟩
  | 100 => ⟨S640000x1, .i32⟩
  | 101 => ⟨S50000x256, .f32⟩
  | 102 => ⟨S_, .f32⟩
  | 103 => ⟨S640000, .f32⟩
  | 104 => ⟨S_, .f32⟩
  | 105 => ⟨S50000, .f32⟩
  | 106 => ⟨S640000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S50000x256, .f32⟩
  | 119 => ⟨S50000x256, .f32⟩
  | 120 => ⟨S_, .f32⟩
  | 121 => ⟨S50000, .f32⟩
  | 122 => ⟨S50000x1, .f32⟩
  | 123 => ⟨S_, .f32⟩
  | 124 => ⟨S50000x1, .f32⟩
  | 125 => ⟨S50000x1, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .f32⟩
  | 1 => ⟨S_, .f32⟩
  | 2 => ⟨S50000, .f32⟩
  | 3 => ⟨S50000x1, .f32⟩
  | 4 => ⟨S_, .f32⟩
  | 5 => ⟨S50000x1, .f32⟩
  | 6 => ⟨S50000x1, .f32⟩
  | 7 => ⟨S50000x256, .f32⟩
  | 8 => ⟨S50000x256, .f32⟩
  | 9 => ⟨S_, .f32⟩
  | 10 => ⟨S50000x1, .f32⟩
  | 11 => ⟨S50000x1, .f32⟩
  | 12 => ⟨S50000x1, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S50000x256, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x256, .f32⟩
  | 34 => ⟨S_, .f32⟩
  | 35 => ⟨S50000x256, .f32⟩
  | 36 => ⟨S640000x1, .i32⟩
  | 37 => ⟨S50000x256, .f32⟩
  | 38 => ⟨S_, .f32⟩
  | 39 => ⟨S640000, .f32⟩
  | 40 => ⟨S_, .f32⟩
  | 41 => ⟨S50000, .f32⟩
  | 42 => ⟨S640000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x256, .f32⟩
  | 49 => ⟨S50000x256, .f32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call0_cst : Ref sig .tc := ⟨.hbm, 81, rfl⟩
abbrev main_call0_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_9 : Ref sig .tc := ⟨.hbm, 89, rfl⟩
abbrev main_v59 : Ref sig .tc := ⟨.hbm, 90, rfl⟩
abbrev main_v60 : Ref sig .tc := ⟨.hbm, 91, rfl⟩
abbrev main_c_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call1_cst : Ref sig .tc := ⟨.hbm, 149, rfl⟩
abbrev main_call1_v0 : Ref sig .tc := ⟨.hbm, 150, rfl⟩
abbrev main_v108 : Ref sig .tc := ⟨.hbm, 151, rfl⟩
abbrev main_v109 : Ref sig .tc := ⟨.hbm, 152, rfl⟩
abbrev main_c_20 : Ref sig .tc := ⟨.hbm, 153, rfl⟩
abbrev main_v110 : Ref sig .tc := ⟨.hbm, 154, rfl⟩
abbrev main_v111 : Ref sig .tc := ⟨.hbm, 155, rfl⟩
abbrev main_c_21 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_22 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_23 : Ref sig .tc := ⟨.hbm, 166, rfl⟩
abbrev main_v120 : Ref sig .tc := ⟨.hbm, 167, rfl⟩
abbrev main_cst_24 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_25 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.  The program is three tiled regions among stretches of host
  operations; its run is read boundary by boundary, each boundary's buffer contents a function of the one before:
  a stretch applies its host operations, a region leaves each of its arrays at what its write-backs wrote.  Every
  execution ends with the result buffer at the last boundary's contents and the seventeen arguments as launched.
-/
import proofs.«109566_j317827580339_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result buffer at the last boundary's contents
    and each argument array as launched. -/
theorem run_result : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v78 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.Result

end
-- ==== Proof.Spec.lean ====
/-
  The mathematics both programs compute, written row by row over the extended reals.

  A node's row of features goes through a mean-aggregation convolution: the neighbour mean `a` of the row through a
  matrix `Wl`, plus a bias, plus the node's own row `x` through a second matrix `Wr` (`linRow`).  The first two layers
  then normalise the 256 entries of the result (`normRow`: subtract the mean, scale by the reciprocal square root of
  the mean squared deviation plus a small constant, then an affine map), clip below at zero and add a skip term: a
  third linear image of the row in the first layer (`layer1Row`), the row itself in the second (`layer2Row`).  The
  third layer is the bare convolution (`layer3Row`).

  Every entry of a layer's result depends only on the same row of its two matrix arguments, so a tile of rows and the
  whole array are read by the same row function; no sum is regrouped anywhere, and no finiteness is needed.
  The float constants stay as their words: `256`, the small constant of the normalisation, and zero.
-/
import Idealize.ShloMosaic.PureOps.Ideal
import Idealize.ShloMosaic.Lib.ValueIdx

noncomputable section

open scoped BigOperators

namespace Cert.Sage

open Idealize.ShloMosaic Idealize.ShloMosaic.ValueIdx

/-- One output entry of a convolution: `(a · Wl)_c + b_c + (x · Wr)_c`, grouped as the programs group it. -/
def linRow {K C : Nat} (a x : Fin K → EReal) (Wl Wr : Fin K → Fin C → EReal) (b : Fin C → EReal) (c : Fin C) : EReal :=
  ((∑ k : Fin K, a k * Wl k c) + b c) + ∑ k : Fin K, x k * Wr k c

/-- The mean of a row of 256 entries: their sum divided by the float `256`. -/
def mean256 (h : Fin 256 → EReal) : EReal :=
  Ideal.div (∑ c : Fin 256, h c) (Ideal.ofBits .f32 0x43800000#32)

/-- Layer normalisation of a row of 256 entries followed by the affine map `· g + be`. -/
def normRow (h g be : Fin 256 → EReal) (c : Fin 256) : EReal :=
  ((h c - mean256 h)
      * Ideal.rsqrt (mean256 (fun j => (h j - mean256 h) * (h j - mean256 h)) + Ideal.ofBits .f32 0x3727C5AC#32))
    * g c + be c

/-- First layer, one entry: convolution, normalisation, clip at zero, plus the projected skip `(x · Wsk)_c + bsk_c`. -/
def layer1Row (a x : Fin 128 → EReal) (Wl Wr Wsk : Fin 128 → Fin 256 → EReal) (bl g be bsk : Fin 256 → EReal)
    (c : Fin 256) : EReal :=
  max (normRow (linRow a x Wl Wr bl) g be c) (Ideal.ofBits .f32 0x00000000#32)
    + ((∑ k : Fin 128, x k * Wsk k c) + bsk c)

/-- Second layer, one entry: convolution, normalisation, clip at zero, plus the row's own entry. -/
def layer2Row (a x : Fin 256 → EReal) (Wl Wr : Fin 256 → Fin 256 → EReal) (bl g be : Fin 256 → EReal)
    (c : Fin 256) : EReal :=
  max (normRow (linRow a x Wl Wr bl) g be c) (Ideal.ofBits .f32 0x00000000#32) + x c

/-- Third layer, one entry: the bare convolution. -/
def layer3Row (a x : Fin 256 → EReal) (Wl Wr : Fin 256 → Fin 128 → EReal) (bl : Fin 128 → EReal) (c : Fin 128) : EReal :=
  linRow a x Wl Wr bl c

/-! ## The layers on whole arrays of 50000 rows

  The two row-indexed arguments are arrays; the matrices and vectors are taken by their coordinates, so that a program
  may hold a vector as a one-row matrix or a matrix in another float format and still name the same function. -/

/-- Row `r` of an array of `n` columns. -/
abbrev rowOf {R n : Nat} (A : (⟨2, ![R, n]⟩ : Shape).Idx → EReal) (r : Fin R) : Fin n → EReal := fun k => A (ix2 r k)

/-- A matrix by its two coordinates. -/
abbrev matOf {K C : Nat} (W : (⟨2, ![K, C]⟩ : Shape).Idx → EReal) : Fin K → Fin C → EReal := fun k c => W (ix2 k c)

/-- A vector by its coordinate. -/
abbrev vecOf {C : Nat} (b : (⟨1, ![C]⟩ : Shape).Idx → EReal) : Fin C → EReal := fun c => b (ix1 c)

/-- A one-row matrix as the vector of its row. -/
abbrev vecOfRow {C : Nat} (b : (⟨2, ![1, C]⟩ : Shape).Idx → EReal) : Fin C → EReal := fun c => b (ix2 0 c)

/-- The first layer on whole arrays: entry `(r, c)` is `layer1Row` of row `r` of the neighbour means and of the features. -/
def layer1 (A X : (⟨2, ![50000, 128]⟩ : Shape).Idx → EReal) (Wl Wr Wsk : Fin 128 → Fin 256 → EReal)
    (bl g be bsk : Fin 256 → EReal) : (⟨2, ![50000, 256]⟩ : Shape).Idx → EReal :=
  fun i => layer1Row (rowOf A ⟨(i 0).val, (i 0).isLt⟩) (rowOf X ⟨(i 0).val, (i 0).isLt⟩) Wl Wr Wsk bl g be bsk
    ⟨(i 1).val, (i 1).isLt⟩

/-- The second layer on whole arrays. -/
def layer2 (A X : (⟨2, ![50000, 256]⟩ : Shape).Idx → EReal) (Wl Wr : Fin 256 → Fin 256 → EReal)
    (bl g be : Fin 256 → EReal) : (⟨2, ![50000, 256]⟩ : Shape).Idx → EReal :=
  fun i => layer2Row (rowOf A ⟨(i 0).val, (i 0).isLt⟩) (rowOf X ⟨(i 0).val, (i 0).isLt⟩) Wl Wr bl g be
    ⟨(i 1).val, (i 1).isLt⟩

/-- The third layer on whole arrays. -/
def layer3 (A X : (⟨2, ![50000, 256]⟩ : Shape).Idx → EReal) (Wl Wr : Fin 256 → Fin 128 → EReal)
    (bl : Fin 128 → EReal) : (⟨2, ![50000, 128]⟩ : Shape).Idx → EReal :=
  fun i => layer3Row (rowOf A ⟨(i 0).val, (i 0).isLt⟩) (rowOf X ⟨(i 0).val, (i 0).isLt⟩) Wl Wr bl
    ⟨(i 1).val, (i 1).isLt⟩

end Cert.Sage

end
-- ==== Proof.Aggregate.lean ====
/-
  The neighbour mean shared by both programs, as ONE function of a feature array and the edge list.

  The edge list has a row of source nodes and a row of destination nodes.  Each edge reads its source's row of
  features (a negative source index is first shifted by the node count, the indexing convention), the rows are summed
  into their destinations, and every destination's sum is divided by its number of incoming edges, clipped below at
  one.  Both programs apply exactly these operations in exactly this order, once per layer, so the proof names the
  chain and never opens it: all it needs is that equal feature arrays have equal neighbour means.
-/
import proofs.«109566_j317827580339_1_alg».proof.ReferenceIdeal
import proofs.«109566_j317827580339_1_alg».proof.Proof.Gen.ReferenceIdeal

noncomputable section

namespace Cert.Sage

open Idealize.ShloMosaic Cert.ReferenceIdeal Cert.ReferenceIdeal.Facts₀ Cert.ReferenceIdeal.Facts

variable {F : FTy → Type} [FloatOps F]

/-- The edges' source nodes. -/
def edgeSrc (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- The edges' destination nodes. -/
def edgeDst (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The sources as a column of row numbers to read: a negative one shifted by the node count. -/
def srcCol (e : (⟨S2x640000, .i32⟩ : BufTy).Contents (Elt F)) : (⟨S640000x1, .i32⟩ : BufTy).Contents (Elt F) :=
  broadcastInDim S640000x1 ![0] bcast_S640000_S640000x1_0
    (select (cmpi .slt (edgeSrc e) (broadcastInDim S640000 ![] bcast_S_S640000 (constantI S_ 32 0#32)))
      (addi (edgeSrc e) (broadcastInDim S640000 ![] bcast_S_S640000 (constantI S_ 32 50000#32))) (edgeSrc e))

/-- The destinations as a column of row numbers to add into. -/
def dstCol (e : (⟨S2x640000, .i32⟩ : BufTy).Contents (Elt F)) : (⟨S640000x1, .i32⟩ : BufTy).Contents (Elt F) :=
  broadcastInDim S640000x1 ![0] bcast_S640000_S640000x1_0 (edgeDst e)

/-- Each node's number of incoming edges, clipped below at one. -/
def degree (e : (⟨S2x640000, .i32⟩ : BufTy).Contents (Elt F)) : (⟨S50000, .f32⟩ : BufTy).Contents (Elt F) :=
  maximumf
    (Host.scatterAdd scatter_S50000_S640000x1_S640000_n_0_0_1
      (broadcastInDim S50000 ![] bcast_S_S50000 (constant S_ .f32 0x00000000#32)) (dstCol e)
      (broadcastInDim S640000 ![] bcast_S_S640000 (constant S_ .f32 0x3F800000#32)))
    (broadcastInDim S50000 ![] bcast_S_S50000 (constant S_ .f32 0x3F800000#32))

/-- The neighbour mean of an array of 128 features per node. -/
def agg128 (x : (⟨S50000x128, .f32⟩ : BufTy).Contents (Elt F)) (e : (⟨S2x640000, .i32⟩ : BufTy).Contents (Elt F)) :
    (⟨S50000x128, .f32⟩ : BufTy).Contents (Elt F) :=
  Host.divf
    (Host.scatterAdd scatter_S50000x128_S640000x1_S640000x128_1_0_0_1
      (broadcastInDim S50000x128 ![] bcast_S_S50000x128 (constant S_ .f32 0x00000000#32)) (dstCol e)
      (Host.gather gather_S50000x128_S640000x1_S640000x128_1_0_n_n_0_1_1128 x (srcCol e)))
    (broadcastInDim S50000x128 ![0, 1] bcast_S50000x1_S50000x128_0_1
      (broadcastInDim S50000x1 ![0] bcast_S50000_S50000x1_0 (degree e)))

/-- The neighbour mean of an array of 256 features per node. -/
def agg256 (h : (⟨S50000x256, .f32⟩ : BufTy).Contents (Elt F)) (e : (⟨S2x640000, .i32⟩ : BufTy).Contents (Elt F)) :
    (⟨S50000x256, .f32⟩ : BufTy).Contents (Elt F) :=
  Host.divf
    (Host.scatterAdd scatter_S50000x256_S640000x1_S640000x256_1_0_0_1
      (broadcastInDim S50000x256 ![] bcast_S_S50000x256 (constant S_ .f32 0x00000000#32)) (dstCol e)
      (Host.gather gather_S50000x256_S640000x1_S640000x256_1_0_n_n_0_1_1256 h (srcCol e)))
    (broadcastInDim S50000x256 ![0, 1] bcast_S50000x1_S50000x256_0_1
      (broadcastInDim S50000x1 ![0] bcast_S50000_S50000x1_0 (degree e)))

end Cert.Sage

end
-- ==== Proof.Network.lean ====
/-
  The whole network as ONE function of the seventeen argument arrays: three mean-aggregation convolutions, the first
  two followed by normalisation, a clip at zero and a skip term, each layer reading the neighbour means of the
  layer before it.  Both programs are shown to end at this function of their arguments.
-/
import proofs.«109566_j317827580339_1_alg».proof.Proof.Spec
import proofs.«109566_j317827580339_1_alg».proof.Proof.Aggregate

noncomputable section

namespace Cert.Sage

open Idealize.ShloMosaic Cert.ReferenceIdeal

/-- The first hidden layer: the features' neighbour means and the features through `layer1`. -/
def hidden1 (x : (⟨S50000x128, .f32⟩ : BufTy).Contents (Elt Ideal)) (e : (⟨S2x640000, .i32⟩ : BufTy).Contents (Elt Ideal))
    (W1l : (⟨S128x256, .f32⟩ : BufTy).Contents (Elt Ideal)) (b1l : (⟨S256, .f32⟩ : BufTy).Contents (Elt Ideal))
    (W1r : (⟨S128x256, .f32⟩ : BufTy).Contents (Elt Ideal)) (g1 be1 : (⟨S256, .f32⟩ : BufTy).Contents (Elt Ideal))
    (Wsk : (⟨S128x256, .f32⟩ : BufTy).Contents (Elt Ideal)) (bsk : (⟨S256, .f32⟩ : BufTy).Contents (Elt Ideal)) :
    (⟨S50000x256, .f32⟩ : BufTy).Contents (Elt Ideal) :=
  layer1 (agg128 x e) x (matOf W1l) (matOf W1r) (matOf Wsk) (vecOf b1l) (vecOf g1) (vecOf be1) (vecOf bsk)

/-- The second hidden layer, of the first. -/
def hidden2 (h : (⟨S50000x256, .f32⟩ : BufTy).Contents (Elt Ideal)) (e : (⟨S2x640000, .i32⟩ : BufTy).Contents (Elt Ideal))
    (W2l : (⟨S256x256, .f32⟩ : BufTy).Contents (Elt Ideal)) (b2l : (⟨S256, .f32⟩ : BufTy).Contents (Elt Ideal))
    (W2r : (⟨S256x256, .f32⟩ : BufTy).Contents (Elt Ideal)) (g2 be2 : (⟨S256, .f32⟩ : BufTy).Contents (Elt Ideal)) :
    (⟨S50000x256, .f32⟩ : BufTy).Contents (Elt Ideal) :=
  layer2 (agg256 h e) h (matOf W2l) (matOf W2r) (vecOf b2l) (vecOf g2) (vecOf be2)

/-- The output layer, of the second hidden layer. -/
def output (h : (⟨S50000x256, .f32⟩ : BufTy).Contents (Elt Ideal)) (e : (⟨S2x640000, .i32⟩ : BufTy).Contents (Elt Ideal))
    (W3l : (⟨S256x128, .f32⟩ : BufTy).Contents (Elt Ideal)) (b3l : (⟨S128, .f32⟩ : BufTy).Contents (Elt Ideal))
    (W3r : (⟨S256x128, .f32⟩ : BufTy).Contents (Elt Ideal)) :
    (⟨S50000x128, .f32⟩ : BufTy).Contents (Elt Ideal) :=
  layer3 (agg256 h e) h (matOf W3l) (matOf W3r) (vecOf b3l)

/-- The network. -/
def network (x : (⟨S50000x128, .f32⟩ : BufTy).Contents (Elt Ideal)) (e : (⟨S2x640000, .i32⟩ : BufTy).Contents (Elt Ideal))
    (W1l : (⟨S128x256, .f32⟩ : BufTy).Contents (Elt Ideal)) (b1l : (⟨S256, .f32⟩ : BufTy).Contents (Elt Ideal))
    (W1r : (⟨S128x256, .f32⟩ : BufTy).Contents (Elt Ideal)) (g1 be1 : (⟨S256, .f32⟩ : BufTy).Contents (Elt Ideal))
    (Wsk : (⟨S128x256, .f32⟩ : BufTy).Contents (Elt Ideal)) (bsk : (⟨S256, .f32⟩ : BufTy).Contents (Elt Ideal))
    (W2l : (⟨S256x256, .f32⟩ : BufTy).Contents (Elt Ideal)) (b2l : (⟨S256, .f32⟩ : BufTy).Contents (Elt Ideal))
    (W2r : (⟨S256x256, .f32⟩ : BufTy).Contents (Elt Ideal)) (g2 be2 : (⟨S256, .f32⟩ : BufTy).Contents (Elt Ideal))
    (W3l : (⟨S256x128, .f32⟩ : BufTy).Contents (Elt Ideal)) (b3l : (⟨S128, .f32⟩ : BufTy).Contents (Elt Ideal))
    (W3r : (⟨S256x128, .f32⟩ : BufTy).Contents (Elt Ideal)) :
    (⟨S50000x128, .f32⟩ : BufTy).Contents (Elt Ideal) :=
  output (hidden2 (hidden1 x e W1l b1l W1r g1 be1 Wsk bsk) e W2l b2l W2r g2 be2) e W3l b3l W3r

end Cert.Sage

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.BodyOps.lean ====
/-
  Readings at an index that the tile bodies share, over an arbitrary number of rows.

  A keepdims row statistic is built in three moves: a sum along the lanes of an `[a, b]` tile into a
  vector of `a` entries, that vector viewed as an `[a, 1]` column, and the column spread back over
  `b` lanes.  At row `p` the first is the sum over the row's `b` entries, the second reads the
  vector at `p` whatever the unit coordinate, and the third reads the column at `(p, 0)` whatever
  the lane.

  On tiles of 256 lanes the first two layers then normalise each row: the column of row means (the
  row sum over the float `256`), the deviations from it, the column of mean squared deviations, a
  small constant added, the reciprocal square root, and a one-row scale spread over the rows.  Read at
  row `p` and lane `q` this is the row function's scaled deviation of row `p` at `q`, times the
  scale's entry at `q`: every statistic is a function of row `p` alone.
-/
import Idealize.ShloMosaic.Lib.ValueIdx
import Idealize.ShloMosaic.Lib.Pipeline.Value
import Idealize.ShloMosaic.Lib.ValueLayout
import Idealize.ShloMosaic.PureOps.Ideal.Laws
import proofs.«109566_j317827580339_1_alg».proof.Proof.Spec
import proofs.«109566_j317827580339_1_alg».proof.Proof.LibKeepdims

noncomputable section

open scoped BigOperators

namespace Cert.Sage.Body

open Cert.Sage Cert.Lib.Keepdims Idealize.ShloMosaic Idealize.ShloMosaic.ValueIdx

/-! ## The normalisation of a tile of 256 lanes -/

/-- A row's deviation from its mean at `c`, scaled by the reciprocal square root of the row's mean squared
    deviation plus the small constant: the row function's normalisation before its affine map. -/
def scaleRow (r : Fin 256 → EReal) (c : Fin 256) : EReal :=
  (r c - mean256 r)
    * Ideal.rsqrt (mean256 (fun j => (r j - mean256 r) * (r j - mean256 r)) + Ideal.ofBits .f32 0x3727C5AC#32)

/-- The row function's normalisation is the scaled deviation through the affine map. -/
theorem normRow_eq (h g be : Fin 256 → EReal) (c : Fin 256) : normRow h g be c = scaleRow h c * g c + be c := rfl

/-- The keepdims column of row means of a tile of 256 lanes, as a body writes it: the lane sum, viewed as a column,
    over the float `256`. -/
def meanCol {a : ℕ} (h : FVec Ideal ⟨2, ![a, 256]⟩ .f32) (hr : (⟨2, ![a, 256]⟩ : Shape).Reduces [1] ⟨1, ![a]⟩)
    (hc : (⟨1, ![a]⟩ : Shape).ShapeCasts ⟨2, ![a, 1]⟩) (hφ : FKind.Formats .f32)
    (hacc : (0x00000000#32 : BitVec 32) = 0x00000000#32) : FVec Ideal ⟨2, ![a, 1]⟩ .f32 :=
  divf (shapeCast ⟨2, ![a, 1]⟩ (multiReduction (F := Ideal) .add [1] ⟨1, ![a]⟩ h 0x00000000#32 hr hφ hacc) hc)
    (broadcast ⟨2, ![a, 1]⟩ (Scalar.ofBits .f32 0x43800000#32))

/-- The column of row means at row `p` is the mean of row `p`. -/
theorem meanCol_apply {a : ℕ} (h : FVec Ideal ⟨2, ![a, 256]⟩ .f32) (hr : (⟨2, ![a, 256]⟩ : Shape).Reduces [1] ⟨1, ![a]⟩)
    (hc : (⟨1, ![a]⟩ : Shape).ShapeCasts ⟨2, ![a, 1]⟩) (hφ : FKind.Formats .f32)
    (hacc : (0x00000000#32 : BitVec 32) = 0x00000000#32) (p : Fin a) (u : Fin 1) :
    meanCol h hr hc hφ hacc (ix2 p u) = mean256 (rowOf h p) :=
  congrArg (fun s => Ideal.div s (Ideal.ofBits .f32 0x43800000#32))
    ((shapeCast_a_a1_apply _ hc p u).trans (rowSum_apply h hr hφ hacc p))

/-- The normalisation of a tile of 256 lanes up to its scale, as the first two layers' bodies write it. -/
def normTile {a : ℕ} (h : FVec Ideal ⟨2, ![a, 256]⟩ .f32) (g : FVec Ideal ⟨2, ![1, 256]⟩ .f32)
    (hr : (⟨2, ![a, 256]⟩ : Shape).Reduces [1] ⟨1, ![a]⟩) (hc : (⟨1, ![a]⟩ : Shape).ShapeCasts ⟨2, ![a, 1]⟩)
    (hb : (⟨2, ![a, 1]⟩ : Shape).Broadcasts ⟨2, ![a, 256]⟩) (hg : (⟨2, ![1, 256]⟩ : Shape).Broadcasts ⟨2, ![a, 256]⟩)
    (hφ : FKind.Formats .f32) (hacc : (0x00000000#32 : BitVec 32) = 0x00000000#32) : FVec Ideal ⟨2, ![a, 256]⟩ .f32 :=
  mulf
    (mulf (subf h (broadcastTo ⟨2, ![a, 256]⟩ (meanCol h hr hc hφ hacc) hb))
      (broadcastTo ⟨2, ![a, 256]⟩
        (rsqrt (addf
          (meanCol (mulf (subf h (broadcastTo ⟨2, ![a, 256]⟩ (meanCol h hr hc hφ hacc) hb))
            (subf h (broadcastTo ⟨2, ![a, 256]⟩ (meanCol h hr hc hφ hacc) hb))) hr hc hφ hacc)
          (broadcast ⟨2, ![a, 1]⟩ (Scalar.ofBits .f32 0x3727C5AC#32)))) hb))
    (broadcastTo ⟨2, ![a, 256]⟩ g hg)

/-- The normalised tile at row `p` and lane `q`: the scaled deviation of row `p` at `q`, times the scale's entry. -/
theorem normTile_apply {a : ℕ} (h : FVec Ideal ⟨2, ![a, 256]⟩ .f32) (g : FVec Ideal ⟨2, ![1, 256]⟩ .f32)
    (hr : (⟨2, ![a, 256]⟩ : Shape).Reduces [1] ⟨1, ![a]⟩) (hc : (⟨1, ![a]⟩ : Shape).ShapeCasts ⟨2, ![a, 1]⟩)
    (hb : (⟨2, ![a, 1]⟩ : Shape).Broadcasts ⟨2, ![a, 256]⟩) (hg : (⟨2, ![1, 256]⟩ : Shape).Broadcasts ⟨2, ![a, 256]⟩)
    (hφ : FKind.Formats .f32) (hacc : (0x00000000#32 : BitVec 32) = 0x00000000#32) (p : Fin a) (q : Fin 256) :
    normTile h g hr hc hb hg hφ hacc (ix2 p q) = scaleRow (rowOf h p) q * g (ix2 (0 : Fin 1) q) := by
  -- the deviation of row `p` at any lane
  have hdev : ∀ c : Fin 256, subf h (broadcastTo ⟨2, ![a, 256]⟩ (meanCol h hr hc hφ hacc) hb) (ix2 p c)
      = rowOf h p c - mean256 (rowOf h p) := fun c =>
    congrArg (fun m => h (ix2 p c) - m) ((broadcastTo_a1_ab_apply _ hb p c).trans (meanCol_apply h hr hc hφ hacc p 0))
  -- the mean squared deviation of row `p`
  have hvar : meanCol (mulf (subf h (broadcastTo ⟨2, ![a, 256]⟩ (meanCol h hr hc hφ hacc) hb))
        (subf h (broadcastTo ⟨2, ![a, 256]⟩ (meanCol h hr hc hφ hacc) hb))) hr hc hφ hacc (ix2 p (0 : Fin 1))
      = mean256 (fun j => (rowOf h p j - mean256 (rowOf h p)) * (rowOf h p j - mean256 (rowOf h p))) :=
    (meanCol_apply _ hr hc hφ hacc p 0).trans
      (congrArg mean256 (funext fun j => congrArg₂ (· * ·) (hdev j) (hdev j)))
  unfold normTile scaleRow
  refine congrArg₂ (· * ·) (congrArg₂ (· * ·) (hdev q) ?_) (broadcastTo_1b_ab_apply g hg p q)
  exact (broadcastTo_a1_ab_apply _ hb p q).trans
    (congrArg (fun v => Ideal.rsqrt (v + Ideal.ofBits .f32 0x3727C5AC#32)) hvar)

end Cert.Sage.Body

end
-- ==== Proof.Pay0.lean ====
/-
  The first layer's tile body, entry by entry.

  The body takes a tile of 2000 rows of neighbour means and the same rows of node features, both of
  128 entries.  It multiplies each by its 128 × 256 matrix into a zero accumulator, adds the one-row
  bias to the first product and the second product to that: the convolution of the two rows.  It
  then normalises each row of the result over its 256 lanes, multiplies by the one-row scale, adds
  the one-row shift and clips below at zero; and it adds the skip term, a third block product of the
  features with the skip matrix plus the skip's one-row bias.  At row `p` and lane `q` every one of
  these steps reads row `p` only: the block products are sums over the 128 shared coordinates, the
  row statistics are those of row `p` of the convolution, and the one-row vectors are read at `q`.
  So the entry is the first layer's row function of the two rows, with no sum regrouped.
-/
import proofs.«109566_j317827580339_1_alg».proof.Proof.Gen.KernelIdeal.Skeleton
import proofs.«109566_j317827580339_1_alg».proof.Proof.Spec
import proofs.«109566_j317827580339_1_alg».proof.Proof.BodyOps

noncomputable section

open scoped BigOperators

namespace Cert.Sage.Body

open Cert.KernelIdeal Cert.KernelIdeal.Gen Cert.Sage Idealize.ShloMosaic Idealize.ShloMosaic.ValueIdx

/-- The dimension numbers of the tile's block products: rows times a shared coordinate, the shared coordinate times lanes. -/
abbrev D0 : DotDims S2000x128 S128x256 S2000x256 := dot_S2000x128_S128x256_S2000x256_1_0_0_1_n_n

/-- The left operand is read on the output's row … -/
theorem D0_lhs_row (i : S2000x256.Idx) (kq : D0.contr.Idx) : (D0.lhsIdx i kq 0).val = (i 0).val := by
  unfold DotDims.lhsIdx
  rw [dif_neg (show ¬(0 : Fin S2000x128.rank) ∈ D0.lhsBatch by decide),
    dif_pos (show (0 : Fin S2000x128.rank) ∈ D0.lhsNonContracting by decide)]
  rfl
/-- … and at the shared coordinate; -/
theorem D0_lhs_shared (i : S2000x256.Idx) (kq : D0.contr.Idx) : (D0.lhsIdx i kq 1).val = (kq ⟨0, by decide⟩).val :=
  D0.lhsIdx_val_of_single rfl i kq
/-- the right operand at the shared coordinate … -/
theorem D0_rhs_shared (i : S2000x256.Idx) (kq : D0.contr.Idx) : (D0.rhsIdx i kq 0).val = (kq ⟨0, by decide⟩).val :=
  D0.rhsIdx_val_of_single rfl i kq
/-- … and on the output's lane. -/
theorem D0_rhs_lane (i : S2000x256.Idx) (kq : D0.contr.Idx) : (D0.rhsIdx i kq 1).val = (i 1).val := by
  unfold DotDims.rhsIdx
  rw [dif_neg (show ¬(1 : Fin S128x256.rank) ∈ D0.rhsBatch by decide),
    dif_pos (show (1 : Fin S128x256.rank) ∈ D0.rhsNonContracting by decide)]
  rfl

/-- The 2000 × 128 by 128 × 256 block product into a zero accumulator, at row `p` and lane `q`: the sum over the
    shared coordinate of the left operand's row entry times the right operand's column entry. -/
theorem mm0_apply (l : FVec Ideal S2000x128 .bf16) (r : FVec Ideal S128x256 .bf16) (p : Fin 2000) (q : Fin 256) :
    matmul D0 none l r (constant (F := Ideal) S2000x256 .f32 0x00000000#32) (ix2 p q)
      = ∑ k : Fin 128, l (ix2 p k) * r (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k :=
    funext fun a => Fin.ext (by
      match a with
      | ⟨0, _⟩ => exact D0_lhs_row _ _
      | ⟨1, _⟩ => exact (D0_lhs_shared _ _).trans hk)
  have er : D0.rhsIdx (ix2 p q) ((contrEquiv1 D0 128 rfl rfl).symm k) = ix2 k q :=
    funext fun a => Fin.ext (by
      match a with
      | ⟨0, _⟩ => exact (D0_rhs_shared _ _).trans hk
      | ⟨1, _⟩ => exact D0_rhs_lane _ _)
  rw [el, er]

variable {F : FTy → Type} [FloatOps F]

/-- The convolution the first layer's body normalises, as the body writes it: two block products into zero
    accumulators, the spread bias added to the first and the second added to that. -/
def lin0 (v0 v3 : Vec F S2000x128 .f32) (v5 v12 : Vec F S128x256 .bf16) (v8 : Vec F S1x256 .f32) : FVec F S2000x256 .f32 :=
  addf
    (addf
      (matmul dot_S2000x128_S128x256_S2000x256_1_0_0_1_n_n none
        (truncf .bf16 (shapeCast S2000x128 v0 shapeCasts_S2000x128_S2000x128) bitsLt_bf16_f32)
        (shapeCast S128x256 v5 shapeCasts_S128x256_S128x256) (constant S2000x256 .f32 0x00000000#32))
      (broadcastTo S2000x256 (shapeCast S1x256 v8 shapeCasts_S1x256_S1x256) broadcasts_S1x256_S2000x256))
    (matmul dot_S2000x128_S128x256_S2000x256_1_0_0_1_n_n none (k0_pay2 v3)
      (shapeCast S128x256 v12 shapeCasts_S128x256_S128x256) (constant S2000x256 .f32 0x00000000#32))

/-- That convolution at row `p` and lane `c` is the row function's convolution of the two rows. -/
theorem lin0_apply (x0 x1 : Vec Ideal S2000x128 .f32) (x2 x4 : Vec Ideal S128x256 .bf16) (x3 : Vec Ideal S1x256 .f32)
    (p : Fin 2000) (c : Fin 256) :
    lin0 (F := Ideal) x0 x1 x2 x4 x3 (ix2 p c)
      = linRow (rowOf x0 p) (rowOf x1 p) (matOf x2) (matOf x4) (vecOfRow x3) c := by
  unfold lin0 linRow
  rw [shapeCast_self x0, shapeCast_self x2, shapeCast_self x4, shapeCast_self x3]
  refine (addf_apply _ _ _).trans (congrArg₂ (· + ·) ((addf_apply _ _ _).trans (congrArg₂ (· + ·) ?_ ?_)) ?_)
  · exact mm0_apply _ _ p c
  · exact broadcastTo_1b_ab_apply x3 _ p c
  · exact mm0_apply _ _ p c

/-- The body's first part is the normalisation, up to the scale, of that convolution. -/
theorem k0_pay3_eq (x0 x1 : Vec Ideal S2000x128 .f32) (x2 x4 : Vec Ideal S128x256 .bf16) (x3 x5 : Vec Ideal S1x256 .f32) :
    k0_pay3 (F := Ideal) x0 x1 x2 x3 x4 x5
      = normTile (lin0 (F := Ideal) x0 x1 x2 x4 x3) (shapeCast S1x256 x5 shapeCasts_S1x256_S1x256)
          reduces_S2000x256_S2000 shapeCasts_S2000_S2000x1 broadcasts_S2000x1_S2000x256 broadcasts_S1x256_S2000x256
          (.inl rfl) rfl := rfl

/-- The first layer's tile body at row `p` and lane `q` is the first layer's row function of row `p` of the
    neighbour means and row `p` of the features. -/
theorem pay0_apply (x0 x1 : Vec Ideal S2000x128 .f32) (x2 x4 x7 : Vec Ideal S128x256 .bf16)
    (x3 x5 x6 x8 : Vec Ideal S1x256 .f32) (p : Fin 2000) (q : Fin 256) :
    k0_pay1 (F := Ideal) (k0_pay2 x1) (k0_pay3 x0 x1 x2 x3 x4 x5) x6 x7 x8 (ix2 p q)
      = layer1Row (rowOf x0 p) (rowOf x1 p) (matOf x2) (matOf x4) (matOf x7) (vecOfRow x3) (vecOfRow x5) (vecOfRow x6)
          (vecOfRow x8) q := by
  unfold k0_pay1 layer1Row
  rw [k0_pay3_eq, normRow_eq, shapeCast_self x7]
  refine (addf_apply _ _ _).trans (congrArg₂ (· + ·) ?_ ?_)
  · refine (maximumf_apply _ _ _).trans (congrArg₂ max ?_ rfl)
    refine (addf_apply _ _ _).trans
      (congrArg₂ (· + ·) ?_ ((broadcastTo_1b_ab_apply _ _ p q).trans (congrFun (shapeCast_self x6 _) _)))
    refine (normTile_apply _ _ _ _ _ _ _ _ p q).trans ?_
    exact congrArg₂ (· * ·)
      (congrArg (fun r => scaleRow r q) (funext fun c => lin0_apply x0 x1 x2 x4 x3 p c))
      (congrFun (shapeCast_self x5 _) _)
  · refine (addf_apply _ _ _).trans
      (congrArg₂ (· + ·) ?_ ((broadcastTo_1b_ab_apply _ _ p q).trans (congrFun (shapeCast_self x8 _) _)))
    exact mm0_apply _ _ p q

end Cert.Sage.Body

end
-- ==== Proof.Region0.lean ====
/-
  The first region's output array after the run, as one function of the arrays the region finds.

  The region walks 25 grid points; at point `t` it fetches rows `2000 t … 2000 t + 1999` of the neighbour means and of
  the features, the three weight matrices and the four one-row vectors whole, and writes back the same rows of the
  output.  Every output entry depends only on its own row of the two tiled arguments, so what point `t` writes back is
  block `t` of the whole-array first layer, and the 25 blocks tile the 50000 rows.
-/
import proofs.«109566_j317827580339_1_alg».proof.Proof.Gen.KernelIdeal.Frame
import proofs.«109566_j317827580339_1_alg».proof.Proof.Spec
import proofs.«109566_j317827580339_1_alg».proof.Proof.Pay0
import Idealize.ShloMosaic.Lib.ValueIdx
import Idealize.ShloMosaic.Lib.Pipeline.Value

set_option maxRecDepth 16384

noncomputable section

namespace Cert.Sage.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)
open Cert.Sage.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two tiled inputs and the output take block row `t`, column block 0;
    the matrices and the one-row vectors always take block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

theorem t_lt (t : Fin cfg0.N) : t.val < 25 := lt_of_lt_of_eq t.isLt N_0

/-- A row of the tile of neighbour means at point `t` is row `2000 t + p` of the array. -/
theorem read_agg (c : Dev nD) (t : Fin cfg0.N) (p : Fin 2000) (k : Fin 128) :
    iblk0 V c 0 t (ix2 p k) = V c main_v22 (ix2 ⟨t.val * 2000 + p.val, by have := t_lt t; have := p.isLt; omega⟩ k) := by
  show V c main_v22 (((cfg0.win 0).blk t).view.emb (ix2 p k)) = _
  refine congrArg (V c main_v22) (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 128 + 1 * k.val = k.val; omega

/-- A row of the tile of features at point `t` is row `2000 t + p` of the array. -/
theorem read_x (c : Dev nD) (t : Fin cfg0.N) (p : Fin 2000) (k : Fin 128) :
    iblk0 V c 1 t (ix2 p k) = V c main_arg0 (ix2 ⟨t.val * 2000 + p.val, by have := t_lt t; have := p.isLt; omega⟩ k) := by
  show V c main_arg0 (((cfg0.win 1).blk t).view.emb (ix2 p k)) = _
  refine congrArg (V c main_arg0) (funext fun a => Fin.ext ?_)
  obtain ⟨-, -, e0, e1, -⟩ := idx_facts t
  match a with
  | ⟨0, _⟩ => show win0_1.index t (0 : Fin 2) * 2000 + 1 * p.val = t.val * 2000 + p.val; omega
  | ⟨1, _⟩ => show win0_1.index t (1 : Fin 2) * 128 + 1 * k.val = k.val; omega

/-- The aggregate's matrix is fetched whole at every point. -/
theorem read_Wl (c : Dev nD) (t : Fin cfg0.N) (k : Fin 128) (q : Fin 256) :
    iblk0 V c 2 t (ix2 k q) = V c main_v23 (ix2 k q) := by
  show V c main_v23 (((cfg0.win 2).blk t).view.emb (ix2 k q)) = _
  refine congrArg (V c main_v23) (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 256 + 1 * q.val = q.val; omega

/-- The bias is fetched whole at every point. -/
theorem read_bl (c : Dev nD) (t : Fin cfg0.N) (q : Fin 256) :
    iblk0 V c 3 t (ix2 0 q) = V c main_v26 (ix2 0 q) := by
  show V c main_v26 (((cfg0.win 3).blk t).view.emb (ix2 0 q)) = _
  refine congrArg (V c main_v26) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 256 + 1 * q.val = q.val; omega

/-- The root matrix is fetched whole at every point. -/
theorem read_Wr (c : Dev nD) (t : Fin cfg0.N) (k : Fin 128) (q : Fin 256) :
    iblk0 V c 4 t (ix2 k q) = V c main_v24 (ix2 k q) := by
  show V c main_v24 (((cfg0.win 4).blk t).view.emb (ix2 k q)) = _
  refine congrArg (V c main_v24) (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 256 + 1 * q.val = q.val; omega

/-- The normalisation's scale is fetched whole at every point. -/
theorem read_g (c : Dev nD) (t : Fin cfg0.N) (q : Fin 256) :
    iblk0 V c 5 t (ix2 0 q) = V c main_v27 (ix2 0 q) := by
  show V c main_v27 (((cfg0.win 5).blk t).view.emb (ix2 0 q)) = _
  refine congrArg (V c main_v27) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 256 + 1 * q.val = q.val; omega

/-- The normalisation's shift is fetched whole at every point. -/
theorem read_be (c : Dev nD) (t : Fin cfg0.N) (q : Fin 256) :
    iblk0 V c 6 t (ix2 0 q) = V c main_v28 (ix2 0 q) := by
  show V c main_v28 (((cfg0.win 6).blk t).view.emb (ix2 0 q)) = _
  refine congrArg (V c main_v28) (funext fun a => Fin.ext ?_)
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 256 + 1 * q.val = q.val; omega

/-- The skip matrix is fetched whole at every point. -/
theorem read_Wsk (c : Dev nD) (t : Fin cfg0.N) (k : Fin 128) (q : Fin 256) :
    iblk0 V c 7 t (ix2 k q) = V c main_v25 (ix2 k q) := by
  show V c main_v25 (((cfg0.win 7).blk t).view.emb (ix2 k q)) = _
  refine congrArg (V c main_v25) (funext fun a => Fin.ext ?_)
  obtain ⟨-, -, -, -, -, -, -, -, -, -, -, -, -, -, e0, e1, -⟩ := idx_facts t
  match a with
  | ⟨0, _⟩ => show win0_7.index t (0 : Fin 2) * 128 + 1 * k.val = k.val; omega
  | ⟨1, _⟩ => show win0_7.index t (1 : Fin 2) * 256 + 1 * q.val = q.val; omega

/-- The skip bias is fetched whole at every point. -/
theorem read_bsk (c : Dev nD) (t : Fin cfg0.N) (q : Fin 256) :
    iblk0 V c 8 t (ix2 0 q) = V c main_v29 (ix2 0 q) := by
  show V c main_v29 (((cfg0.win 8).blk t).view.emb (ix2 0 q)) = _
  refine congrArg (V c main_v29) (funext fun a => Fin.ext ?_)
  obtain ⟨-, -, -, -, -, -, -, -, -, -, -, -, -, -, -, -, e0, e1, -⟩ := idx_facts t
  match a with
  | ⟨0, _⟩ => show win0_8.index t (0 : Fin 2) * 1 + 1 * 0 = 0; omega
  | ⟨1, _⟩ => show win0_8.index t (1 : Fin 2) * 256 + 1 * q.val = q.val; omega

/-- The first layer of the arrays the region finds. -/
def result (c : Dev nD) : S50000x256.Idx → EReal :=
  layer1 (V c main_v22) (V c main_arg0) (matOf (V c main_v23)) (matOf (V c main_v24)) (matOf (V c main_v25))
    (vecOfRow (V c main_v26)) (vecOfRow (V c main_v27)) (vecOfRow (V c main_v28)) (vecOfRow (V c main_v29))

/-- What point `t` writes back is block `t` of that function of the arrays the region finds. -/
theorem flushed_eq (c : Dev nD) (t : Fin cfg0.N) :
    (dat0 V c).flushed 9 t = ((cfg0.win 9).blk t).view.read (Elt Ideal) (result V c) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  refine (pay0_apply _ _ _ _ _ _ _ _ _ p q).trans ?_
  have h_agg : rowOf (iblk0 V c 0 t) p = rowOf (V c main_v22) ⟨t.val * 2000 + p.val, by have := t_lt t; have := p.isLt; omega⟩ :=
    funext fun k => read_agg V c t p k
  have h_x : rowOf (iblk0 V c 1 t) p = rowOf (V c main_arg0) ⟨t.val * 2000 + p.val, by have := t_lt t; have := p.isLt; omega⟩ :=
    funext fun k => read_x V c t p k
  have h_Wl : matOf (iblk0 V c 2 t) = matOf (V c main_v23) := funext fun k => funext fun q => read_Wl V c t k q
  have h_bl : vecOfRow (iblk0 V c 3 t) = vecOfRow (V c main_v26) := funext fun q => read_bl V c t q
  have h_Wr : matOf (iblk0 V c 4 t) = matOf (V c main_v24) := funext fun k => funext fun q => read_Wr V c t k q
  have h_g : vecOfRow (iblk0 V c 5 t) = vecOfRow (V c main_v27) := funext fun q => read_g V c t q
  have h_be : vecOfRow (iblk0 V c 6 t) = vecOfRow (V c main_v28) := funext fun q => read_be V c t q
  have h_Wsk : matOf (iblk0 V c 7 t) = matOf (V c main_v25) := funext fun k => funext fun q => read_Wsk V c t k q
  have h_bsk : vecOfRow (iblk0 V c 8 t) = vecOfRow (V c main_v29) := funext fun q => read_bsk V c t q
  rw [h_agg, h_x, h_Wl, h_bl, h_Wr, h_g, h_be, h_Wsk, h_bsk]
  obtain ⟨-, -, -, -, -, -, -, -, -, -, -, -, -, -, -, -, -, -, e0, e1⟩ := idx_facts t
  show _ = result V c (((cfg0.win 9).blk t).view.emb (ix2 p q))
  unfold result layer1
  have hr : (⟨((((cfg0.win 9).blk t).view.emb (ix2 p q)) 0).val, ((((cfg0.win 9).blk t).view.emb (ix2 p q)) 0).isLt⟩ : Fin 50000)
      = ⟨t.val * 2000 + p.val, by have := t_lt t; have := p.isLt; omega⟩ :=
    Fin.ext (by show win0_9.index t (0 : Fin 2) * 2000 + 1 * p.val = t.val * 2000 + p.val; omega)
  have hq : (⟨((((cfg0.win 9).blk t).view.emb (ix2 p q)) 1).val, ((((cfg0.win 9).blk t).view.emb (ix2 p q)) 1).isLt⟩ : Fin 256) = q :=
    Fin.ext (by show win0_9.index t (1 : Fin 2) * 256 + 1 * q.val = q.val; omega)
  rw [hr, hq]

/-- An index of the output array is in point `t`'s block iff each coordinate is in the block's range. -/
theorem mem_blk (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v30).slice (win0_9.rect t)).set ↔ _
  rw [View.set_slice_whole, Rect.mem_set_unit]
  exact Iff.rfl

/-- The 25 blocks tile the array: row `r` is in the block of point `r / 2000`. -/
theorem cover (i : S50000x256.Idx) :
    ∃ t : Fin cfg0.N, (cfg0.win 9).flush t = true ∧ i ∈ ((cfg0.win 9).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_9 _, ?_⟩
  rw [mem_blk]
  obtain ⟨-, -, -, -, -, -, -, -, -, -, -, -, -, -, -, -, -, -, e0, e1⟩ := idx_facts ⟨(i 0).val / 2000, by rw [hN]; omega⟩
  intro a
  match a with
  | ⟨0, _⟩ =>
    show win0_9.index _ (0 : Fin 2) * 2000 ≤ (i 0).val ∧ (i 0).val < win0_9.index _ (0 : Fin 2) * 2000 + 2000
    rw [e0]; show (i 0).val / 2000 * 2000 ≤ (i 0).val ∧ (i 0).val < (i 0).val / 2000 * 2000 + 2000; omega
  | ⟨1, _⟩ =>
    show win0_9.index _ (1 : Fin 2) * 256 ≤ (i 1).val ∧ (i 1).val < win0_9.index _ (1 : Fin 2) * 256 + 256
    rw [e1]; omega

/-- The region's output array after its run. -/
theorem final (c : Dev nD) : (dat0 V c).arrAt 9 cfg0.N = result V c :=
  (dat0 V c).arrAt_eq_of_cover 9 (result V c) (fun t _ => flushed_eq V c t) (cover)

end Cert.Sage.Region0

end
-- ==== Proof.Pay1.lean ====
/-
  The second layer's tile body, entry by entry.

  The body takes a tile of 2000 rows of neighbour means and the same rows of the first layer's
  result, both of 256 entries.  It multiplies each by its 256 × 256 matrix into a zero accumulator,
  adds the one-row bias to the first product and the second product to that: the convolution of the
  two rows.  It then normalises each row of the tile over its 256 lanes, multiplies by the one-row
  scale, adds the one-row shift, clips below at zero, and adds the tile of the first layer's result
  itself.  At row `p` and lane `q` every one of these steps reads row `p` only: the block products
  are sums over the 256 shared coordinates, the row statistics are those of row `p` of the
  convolution, and the one-row vectors are read at `q`.  So the entry is the second layer's row
  function of the two rows, with no sum regrouped.
-/
import proofs.«109566_j317827580339_1_alg».proof.Proof.Gen.KernelIdeal.Skeleton
import proofs.«109566_j317827580339_1_alg».proof.Proof.Spec
import proofs.«109566_j317827580339_1_alg».proof.Proof.BodyOps

noncomputable section

open scoped BigOperators

namespace Cert.Sage.Body

open Cert.KernelIdeal Cert.KernelIdeal.Gen Cert.Sage Idealize.ShloMosaic Idealize.ShloMosaic.ValueIdx

/-- The dimension numbers of the tile's block products: rows times a shared coordinate, the shared coordinate times lanes. -/
abbrev D1 : DotDims S2000x256 S256x256 S2000x256 := dot_S2000x256_S256x256_S2000x256_1_0_0_1_n_n

/-- The left operand is read on the output's row … -/
theorem D1_lhs_row (i : S2000x256.Idx) (kq : D1.contr.Idx) : (D1.lhsIdx i kq 0).val = (i 0).val := by
  unfold DotDims.lhsIdx
  rw [dif_neg (show ¬(0 : Fin S2000x256.rank) ∈ D1.lhsBatch by decide),
    dif_pos (show (0 : Fin S2000x256.rank) ∈ D1.lhsNonContracting by decide)]
  rfl
/-- … and at the shared coordinate; -/
theorem D1_lhs_shared (i : S2000x256.Idx) (kq : D1.contr.Idx) : (D1.lhsIdx i kq 1).val = (kq ⟨0, by decide⟩).val :=
  D1.lhsIdx_val_of_single rfl i kq
/-- the right operand at the shared coordinate … -/
theorem D1_rhs_shared (i : S2000x256.Idx) (kq : D1.contr.Idx) : (D1.rhsIdx i kq 0).val = (kq ⟨0, by decide⟩).val :=
  D1.rhsIdx_val_of_single rfl i kq
/-- … and on the output's lane. -/
theorem D1_rhs_lane (i : S2000x256.Idx) (kq : D1.contr.Idx) : (D1.rhsIdx i kq 1).val = (i 1).val := by
  unfold DotDims.rhsIdx
  rw [dif_neg (show ¬(1 : Fin S256x256.rank) ∈ D1.rhsBatch by decide),
    dif_pos (show (1 : Fin S256x256.rank) ∈ D1.rhsNonContracting by decide)]
  rfl

/-- The 2000 × 256 by 256 × 256 block product into a zero accumulator, at row `p` and lane `q`: the sum over the
    shared coordinate of the left operand's row entry times the right operand's column entry. -/
theorem mm1_apply (l : FVec Ideal S2000x256 .bf16) (r : FVec Ideal S256x256 .bf16) (p : Fin 2000) (q : Fin 256) :
    matmul D1 none l r (constant (F := Ideal) S2000x256 .f32 0x00000000#32) (ix2 p q)
      = ∑ k : Fin 256, l (ix2 p k) * r (ix2 k q) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p q) ((contrEquiv1 D1 256 rfl rfl).symm k) = ix2 p k :=
    funext fun a => Fin.ext (by
      match a with
      | ⟨0, _⟩ => exact D1_lhs_row _ _
      | ⟨1, _⟩ => exact (D1_lhs_shared _ _).trans hk)
  have er : D1.rhsIdx (ix2 p q) ((contrEquiv1 D1 256 rfl rfl).symm k) = ix2 k q :=
    funext fun a => Fin.ext (by
      match a with
      | ⟨0, _⟩ => exact (D1_rhs_shared _ _).trans hk
      | ⟨1, _⟩ => exact D1_rhs_lane _ _)
  rw [el, er]

variable {F : FTy → Type} [FloatOps F]

/-- The convolution the second layer's body normalises, as the body writes it: two block products into zero
    accumulators, the spread bias added to the first and the second added to that. -/
def lin1 (v0 v3 : Vec F S2000x256 .f32) (v6 v13 : Vec F S256x256 .bf16) (v9 : Vec F S1x256 .f32) : FVec F S2000x256 .f32 :=
  addf
    (addf
      (matmul dot_S2000x256_S256x256_S2000x256_1_0_0_1_n_n none
        (truncf .bf16 (shapeCast S2000x256 v0 shapeCasts_S2000x256_S2000x256) bitsLt_bf16_f32)
        (shapeCast S256x256 v6 shapeCasts_S256x256_S256x256) (constant S2000x256 .f32 0x00000000#32))
      (broadcastTo S2000x256 (shapeCast S1x256 v9 shapeCasts_S1x256_S1x256) broadcasts_S1x256_S2000x256))
    (matmul dot_S2000x256_S256x256_S2000x256_1_0_0_1_n_n none
      (truncf .bf16 (shapeCast S2000x256 v3 shapeCasts_S2000x256_S2000x256) bitsLt_bf16_f32)
      (shapeCast S256x256 v13 shapeCasts_S256x256_S256x256) (constant S2000x256 .f32 0x00000000#32))

/-- That convolution at row `p` and lane `c` is the row function's convolution of the two rows. -/
theorem lin1_apply (x0 x1 : Vec Ideal S2000x256 .f32) (x2 x4 : Vec Ideal S256x256 .bf16) (x3 : Vec Ideal S1x256 .f32)
    (p : Fin 2000) (c : Fin 256) :
    lin1 (F := Ideal) x0 x1 x2 x4 x3 (ix2 p c)
      = linRow (rowOf x0 p) (rowOf x1 p) (matOf x2) (matOf x4) (vecOfRow x3) c := by
  unfold lin1 linRow
  rw [shapeCast_self x0, shapeCast_self x1, shapeCast_self x2, shapeCast_self x4, shapeCast_self x3]
  refine (addf_apply _ _ _).trans (congrArg₂ (· + ·) ((addf_apply _ _ _).trans (congrArg₂ (· + ·) ?_ ?_)) ?_)
  · exact mm1_apply _ _ p c
  · exact broadcastTo_1b_ab_apply x3 _ p c
  · exact mm1_apply _ _ p c

/-- The body's first part is the normalisation, up to the scale, of that convolution. -/
theorem k1_pay2_eq (x0 x1 : Vec Ideal S2000x256 .f32) (x2 x4 : Vec Ideal S256x256 .bf16) (x3 x5 : Vec Ideal S1x256 .f32) :
    k1_pay2 (F := Ideal) x0 x1 x2 x3 x4 x5
      = normTile (lin1 (F := Ideal) x0 x1 x2 x4 x3) (shapeCast S1x256 x5 shapeCasts_S1x256_S1x256)
          reduces_S2000x256_S2000 shapeCasts_S2000_S2000x1 broadcasts_S2000x1_S2000x256 broadcasts_S1x256_S2000x256
          (.inl rfl) rfl := rfl

/-- The second layer's tile body at row `p` and lane `q` is the second layer's row function of row `p` of the
    neighbour means and row `p` of the first layer's result. -/
theorem pay1_apply (x0 x1 : Vec Ideal S2000x256 .f32) (x2 x4 : Vec Ideal S256x256 .bf16) (x3 x5 x6 : Vec Ideal S1x256 .f32)
    (p : Fin 2000) (q : Fin 256) :
    k1_pay1 (F := Ideal) (k1_pay2 x0 x1 x2 x3 x4 x5) x6 x1 (ix2 p q)
      = layer2Row (rowOf x0 p) (rowOf x1 p) (matOf x2) (matOf x4) (vecOfRow x3) (vecOfRow x5) (vecOfRow x6) q := by
  unfold k1_pay1 layer2Row
  rw [k1_pay2_eq, normRow_eq]
  refine (addf_apply _ _ _).trans (congrArg₂ (· + ·) ?_ (congrFun (shapeCast_self x1 _) _))
  refine (maximumf_apply _ _ _).trans (congrArg₂ max ?_ rfl)
  refine (addf_apply _ _ _).trans
    (congrArg₂ (· + ·) ?_ ((broadcastTo_1b_ab_apply _ _ p q).trans (congrFun (shapeCast_self x6 _) _)))
  refine (normTile_apply _ _ _ _ _ _ _ _ p q).trans ?_
  exact congrArg₂ (· * ·)
    (congrArg (fun r => scaleRow r q) (funext fun c => lin1_apply x0 x1 x2 x4 x3 p c))
    (congrFun (shapeCast_self x5 _) _)

end Cert.Sage.Body

end
-- ==== Proof.Region1.lean ====
/-
  The second region's output array after the run, as one function of the arrays the region finds.

  At point `t` the region fetches rows `2000 t … 2000 t + 1999` of the first hidden layer's neighbour means and of
  that layer itself, the two weight matrices and the three one-row vectors whole, and writes back the same rows of
  the output; an output entry depends only on its own row of the two tiled arguments, so the write-back of point `t`
  is block `t` of the whole-array second layer, and the 25 blocks tile the 50000 rows.
-/
import proofs.«109566_j317827580339_1_alg».proof.Proof.Gen.KernelIdeal.Frame
import proofs.«109566_j317827580339_1_alg».proof.Proof.Spec
import proofs.«109566_j317827580339_1_alg».proof.Proof.Pay1
import Idealize.ShloMosaic.Lib.ValueIdx
import Idealize.ShloMosaic.Lib.Pipeline.Value

set_option maxRecDepth 16384

noncomputable section

namespace Cert.Sage.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)
open Cert.Sage.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two tiled inputs and the output take block row `t`, column block 0;
    the matrices and the one-row vectors always take block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

theorem t_lt (t : Fin cfg1.N) : t.val < 25 := lt_of_lt_of_eq t.isLt N_1

/-- A row of the tile of neighbour means at point `t` is row `2000 t + p` of the array. -/
theorem read_agg (c : Dev nD) (t : Fin cfg1.N) (p : Fin 2000) (k : Fin 256) :
    iblk1 V c 0 t (ix2 p k) = V c main_v49 (ix2 ⟨t.val * 2000 + p.val, by have := t_lt t; have := p.isLt; omega⟩ k) := by
  show V c main_v49 (((cfg1.win 0).blk t).view.emb (ix2 p k)) = _
  refine congrArg (V c main_v49) (funext fun a => Fin.ext ?_)
  obtain ⟨e0, e1, -⟩ := idx_facts t
  match a with
  | ⟨0, _⟩ => show win1_0.index t (0 : Fin 2) * 2000 + 1 * p.val = t.val * 2000 + p.val; omega
  | ⟨1, _⟩ => show win1_0.index t (1 : Fin 2) * 256 + 1 * k.val = k.val; omega

/-- A row of the tile of the first hidden layer at point `t` is row `2000 t + p` of the array. -/
theorem read_h (c : Dev nD) (t : Fin cfg1.N) (p : Fin 2000) (k : Fin 256) :
    iblk1 V c 1 t (ix2 p k) = V c main_v30 (ix2 ⟨t.val * 2000 + p.val, by have := t_lt t; have := p.isLt; omega⟩ k) := by
  show V c main_v30 (((cfg1.win 1).blk t).view.emb (ix2 p k)) = _
  refine congrArg (V c main_v30) (funext fun a => Fin.ext ?_)
  obtain ⟨-, -, e0, e1, -⟩ := idx_facts t
  match a with
  | ⟨0, _⟩ => show win1_1.index t (0 : Fin 2) * 2000 + 1 * p.val = t.val * 2000 + p.val; omega
  | ⟨1, _⟩ => show win1_1.index t (1 : Fin 2) * 256 + 1 * k.val = k.val; omega

/-- The aggregate's matrix is fetched whole at every point. -/
theorem read_Wl (c : Dev nD) (t : Fin cfg1.N) (k : Fin 256) (q : Fin 256) :
    iblk1 V c 2 t (ix2 k q) = V c main_v50 (ix2 k q) := by
  show V c main_v50 (((cfg1.win 2).blk t).view.emb (ix2 k q)) = _
  refine congrArg (V c main_v50) (funext fun a => Fin.ext ?_)
  obtain ⟨-, -, -, -, e0, e1, -⟩ := idx_facts t
  match a with
  | ⟨0, _⟩ => show win1_2.index t (0 : Fin 2) * 256 + 1 * k.val = k.val; omega
  | ⟨1, _⟩ => show win1_2.index t (1 : Fin 2) * 256 + 1 * q.val = q.val; omega

/-- The bias is fetched whole at every point. -/
theorem read_bl (c : Dev nD) (t : Fin cfg1.N) (q : Fin 256) :
    iblk1 V c 3 t (ix2 0 q) = V c main_v52 (ix2 0 q) := by
  show V c main_v52 (((cfg1.win 3).blk t).view.emb (ix2 0 q)) = _
  refine congrArg (V c main_v52) (funext fun a => Fin.ext ?_)
  obtain ⟨-, -, -, -, -, -, e0, e1, -⟩ := idx_facts t
  match a with
  | ⟨0, _⟩ => show win1_3.index t (0 : Fin 2) * 1 + 1 * 0 = 0; omega
  | ⟨1, _⟩ => show win1_3.index t (1 : Fin 2) * 256 + 1 * q.val = q.val; omega

/-- The root matrix is fetched whole at every point. -/
theorem read_Wr (c : Dev nD) (t : Fin cfg1.N) (k : Fin 256) (q : Fin 256) :
    iblk1 V c 4 t (ix2 k q) = V c main_v51 (ix2 k q) := by
  show V c main_v51 (((cfg1.win 4).blk t).view.emb (ix2 k q)) = _
  refine congrArg (V c main_v51) (funext fun a => Fin.ext ?_)
  obtain ⟨-, -, -, -, -, -, -, -, e0, e1, -⟩ := idx_facts t
  match a with
  | ⟨0, _⟩ => show win1_4.index t (0 : Fin 2) * 256 + 1 * k.val = k.val; omega
  | ⟨1, _⟩ => show win1_4.index t (1 : Fin 2) * 256 + 1 * q.val = q.val; omega

/-- The normalisation's scale is fetched whole at every point. -/
theorem read_g (c : Dev nD) (t : Fin cfg1.N) (q : Fin 256) :
    iblk1 V c 5 t (ix2 0 q) = V c main_v53 (ix2 0 q) := by
  show V c main_v53 (((cfg1.win 5).blk t).view.emb (ix2 0 q)) = _
  refine congrArg (V c main_v53) (funext fun a => Fin.ext ?_)
  obtain ⟨-, -, -, -, -, -, -, -, -, -, e0, e1, -⟩ := idx_facts t
  match a with
  | ⟨0, _⟩ => show win1_5.index t (0 : Fin 2) * 1 + 1 * 0 = 0; omega
  | ⟨1, _⟩ => show win1_5.index t (1 : Fin 2) * 256 + 1 * q.val = q.val; omega

/-- The normalisation's shift is fetched whole at every point. -/
theorem read_be (c : Dev nD) (t : Fin cfg1.N) (q : Fin 256) :
    iblk1 V c 6 t (ix2 0 q) = V c main_v54 (ix2 0 q) := by
  show V c main_v54 (((cfg1.win 6).blk t).view.emb (ix2 0 q)) = _
  refine congrArg (V c main_v54) (funext fun a => Fin.ext ?_)
  obtain ⟨-, -, -, -, -, -, -, -, -, -, -, -, e0, e1, -⟩ := idx_facts t
  match a with
  | ⟨0, _⟩ => show win1_6.index t (0 : Fin 2) * 1 + 1 * 0 = 0; omega
  | ⟨1, _⟩ => show win1_6.index t (1 : Fin 2) * 256 + 1 * q.val = q.val; omega

/-- The second layer of the arrays the region finds. -/
def result (c : Dev nD) : S50000x256.Idx → EReal :=
  layer2 (V c main_v49) (V c main_v30) (matOf (V c main_v50)) (matOf (V c main_v51))
    (vecOfRow (V c main_v52)) (vecOfRow (V c main_v53)) (vecOfRow (V c main_v54))

/-- What point `t` writes back is block `t` of that function of the arrays the region finds. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  refine (pay1_apply _ _ _ _ _ _ _ p q).trans ?_
  have h_agg : rowOf (iblk1 V c 0 t) p = rowOf (V c main_v49) ⟨t.val * 2000 + p.val, by have := t_lt t; have := p.isLt; omega⟩ :=
    funext fun k => read_agg V c t p k
  have h_h : rowOf (iblk1 V c 1 t) p = rowOf (V c main_v30) ⟨t.val * 2000 + p.val, by have := t_lt t; have := p.isLt; omega⟩ :=
    funext fun k => read_h V c t p k
  have h_Wl : matOf (iblk1 V c 2 t) = matOf (V c main_v50) := funext fun k => funext fun q => read_Wl V c t k q
  have h_bl : vecOfRow (iblk1 V c 3 t) = vecOfRow (V c main_v52) := funext fun q => read_bl V c t q
  have h_Wr : matOf (iblk1 V c 4 t) = matOf (V c main_v51) := funext fun k => funext fun q => read_Wr V c t k q
  have h_g : vecOfRow (iblk1 V c 5 t) = vecOfRow (V c main_v53) := funext fun q => read_g V c t q
  have h_be : vecOfRow (iblk1 V c 6 t) = vecOfRow (V c main_v54) := funext fun q => read_be V c t q
  rw [h_agg, h_h, h_Wl, h_bl, h_Wr, h_g, h_be]
  obtain ⟨-, -, -, -, -, -, -, -, -, -, -, -, -, -, e0, e1⟩ := idx_facts t
  show _ = result V c (((cfg1.win 7).blk t).view.emb (ix2 p q))
  unfold result layer2
  have hr : (⟨((((cfg1.win 7).blk t).view.emb (ix2 p q)) 0).val, ((((cfg1.win 7).blk t).view.emb (ix2 p q)) 0).isLt⟩ : Fin 50000)
      = ⟨t.val * 2000 + p.val, by have := t_lt t; have := p.isLt; omega⟩ :=
    Fin.ext (by show win1_7.index t (0 : Fin 2) * 2000 + 1 * p.val = t.val * 2000 + p.val; omega)
  have hq : (⟨((((cfg1.win 7).blk t).view.emb (ix2 p q)) 1).val, ((((cfg1.win 7).blk t).view.emb (ix2 p q)) 1).isLt⟩ : Fin 256) = q :=
    Fin.ext (by show win1_7.index t (1 : Fin 2) * 256 + 1 * q.val = q.val; omega)
  rw [hr, hq]

/-- An index of the output array is in point `t`'s block iff each coordinate is in the block's range. -/
theorem mem_blk (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v55).slice (win1_7.rect t)).set ↔ _
  rw [View.set_slice_whole, Rect.mem_set_unit]
  exact Iff.rfl

/-- The 25 blocks tile the array: row `r` is in the block of point `r / 2000`. -/
theorem cover (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_7 _, ?_⟩
  rw [mem_blk]
  obtain ⟨-, -, -, -, -, -, -, -, -, -, -, -, -, -, e0, e1⟩ := idx_facts ⟨(i 0).val / 2000, by rw [hN]; omega⟩
  intro a
  match a with
  | ⟨0, _⟩ =>
    show win1_7.index _ (0 : Fin 2) * 2000 ≤ (i 0).val ∧ (i 0).val < win1_7.index _ (0 : Fin 2) * 2000 + 2000
    rw [e0]; show (i 0).val / 2000 * 2000 ≤ (i 0).val ∧ (i 0).val < (i 0).val / 2000 * 2000 + 2000; omega
  | ⟨1, _⟩ =>
    show win1_7.index _ (1 : Fin 2) * 256 ≤ (i 1).val ∧ (i 1).val < win1_7.index _ (1 : Fin 2) * 256 + 256
    rw [e1]; omega

/-- The region's output array after its run. -/
theorem final (c : Dev nD) : (dat1 V c).arrAt 7 cfg1.N = result V c :=
  (dat1 V c).arrAt_eq_of_cover 7 (result V c) (fun t _ => flushed_eq V c t) (cover)

end Cert.Sage.Region1

end
-- ==== Proof.Pay2.lean ====
/-
  The third layer's tile body, entry by entry.

  The body takes a tile of 2000 rows of neighbour means and the same rows of node features, both of
  256 entries, multiplies each by its 256 × 128 matrix into a zero accumulator, adds the one-row bias
  (spread over the 2000 rows) to the first product and then the second product to that.  At row `p`
  and lane `q` a block product is the sum over the 256 shared coordinates of the row's entry times
  the matrix's, the same-shape views and the change of float format around the operands being the
  identity on the extended reals; the spread bias reads its one row at `q`.  So the entry is the bare
  convolution of the two rows, grouped exactly as the row function groups it.
-/
import proofs.«109566_j317827580339_1_alg».proof.Proof.Gen.KernelIdeal.Skeleton
import proofs.«109566_j317827580339_1_alg».proof.Proof.Spec
import proofs.«109566_j317827580339_1_alg».proof.Proof.BodyOps

open scoped BigOperators

namespace Cert.Sage.Body

open Cert.KernelIdeal Cert.KernelIdeal.Gen Cert.Sage Idealize.ShloMosaic Idealize.ShloMosaic.ValueIdx

/-- The dimension numbers of the tile's block products: rows times a shared coordinate, the shared coordinate times lanes. -/
abbrev D2 : DotDims S2000x256 S256x128 S2000x128 := dot_S2000x256_S256x128_S2000x128_1_0_0_1_n_n

/-- The left operand is read on the output's row … -/
theorem D2_lhs_row (i : S2000x128.Idx) (kq : D2.contr.Idx) : (D2.lhsIdx i kq 0).val = (i 0).val := by
  unfold DotDims.lhsIdx
  rw [dif_neg (show ¬(0 : Fin S2000x256.rank) ∈ D2.lhsBatch by decide),
    dif_pos (show (0 : Fin S2000x256.rank) ∈ D2.lhsNonContracting by decide)]
  rfl
/-- … and at the shared coordinate; -/
theorem D2_lhs_shared (i : S2000x128.Idx) (kq : D2.contr.Idx) : (D2.lhsIdx i kq 1).val = (kq ⟨0, by decide⟩).val :=
  D2.lhsIdx_val_of_single rfl i kq
/-- the right operand at the shared coordinate … -/
theorem D2_rhs_shared (i : S2000x128.Idx) (kq : D2.contr.Idx) : (D2.rhsIdx i kq 0).val = (kq ⟨0, by decide⟩).val :=
  D2.rhsIdx_val_of_single rfl i kq
/-- … and on the output's lane. -/
theorem D2_rhs_lane (i : S2000x128.Idx) (kq : D2.contr.Idx) : (D2.rhsIdx i kq 1).val = (i 1).val := by
  unfold DotDims.rhsIdx
  rw [dif_neg (show ¬(1 : Fin S256x128.rank) ∈ D2.rhsBatch by decide),
    dif_pos (show (1 : Fin S256x128.rank) ∈ D2.rhsNonContracting by decide)]
  rfl

/-- The 2000 × 256 by 256 × 128 block product into a zero accumulator, at row `p` and lane `q`: the sum over the
    shared coordinate of the left operand's row entry times the right operand's column entry. -/
theorem mm2_apply (l : FVec Ideal S2000x256 .bf16) (r : FVec Ideal S256x128 .bf16) (p : Fin 2000) (q : Fin 128) :
    matmul D2 none l r (constant (F := Ideal) S2000x128 .f32 0x00000000#32) (ix2 p q)
      = ∑ k : Fin 256, l (ix2 p k) * r (ix2 k q) := by
  simp only [matmul]
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 p q) ((contrEquiv1 D2 256 rfl rfl).symm k) = ix2 p k :=
    funext fun a => Fin.ext (by
      match a with
      | ⟨0, _⟩ => exact D2_lhs_row _ _
      | ⟨1, _⟩ => exact (D2_lhs_shared _ _).trans hk)
  have er : D2.rhsIdx (ix2 p q) ((contrEquiv1 D2 256 rfl rfl).symm k) = ix2 k q :=
    funext fun a => Fin.ext (by
      match a with
      | ⟨0, _⟩ => exact (D2_rhs_shared _ _).trans hk
      | ⟨1, _⟩ => exact D2_rhs_lane _ _)
  rw [el, er]

/-- The third layer's tile body at row `p` and lane `q` is the bare convolution of row `p` of the
    neighbour means and row `p` of the features. -/
theorem pay2_apply (x0 x1 : Vec Ideal S2000x256 .f32) (x2 x4 : Vec Ideal S256x128 .bf16) (x3 : Vec Ideal S1x128 .f32)
    (p : Fin 2000) (q : Fin 128) :
    k2_pay1 (F := Ideal) x0 x1 x2 x3 x4 (ix2 p q)
      = layer3Row (rowOf x0 p) (rowOf x1 p) (matOf x2) (matOf x4) (vecOfRow x3) q := by
  unfold k2_pay1 layer3Row linRow
  rw [shapeCast_self x0, shapeCast_self x1, shapeCast_self x2, shapeCast_self x4, shapeCast_self x3]
  refine (addf_apply _ _ _).trans (congrArg₂ (· + ·) ((addf_apply _ _ _).trans (congrArg₂ (· + ·) ?_ ?_)) ?_)
  · exact mm2_apply _ _ p q
  · exact broadcastTo_1b_ab_apply x3 _ p q
  · exact mm2_apply _ _ p q

end Cert.Sage.Body
-- ==== Proof.Region2.lean ====
/-
  The third region's output array after the run, as one function of the arrays the region finds.

  At point `t` the region fetches rows `2000 t … 2000 t + 1999` of the second hidden layer's neighbour means and of
  that layer itself, the two weight matrices and the bias whole, and writes back the same rows of the result; an
  entry depends only on its own row of the two tiled arguments, so the write-back of point `t` is block `t` of the
  whole-array third layer, and the 25 blocks tile the 50000 rows.
-/
import proofs.«109566_j317827580339_1_alg».proof.Proof.Gen.KernelIdeal.Frame
import proofs.«109566_j317827580339_1_alg».proof.Proof.Spec
import proofs.«109566_j317827580339_1_alg».proof.Proof.Pay2
import Idealize.ShloMosaic.Lib.ValueIdx
import Idealize.ShloMosaic.Lib.Pipeline.Value

set_option maxRecDepth 16384

noncomputable section

namespace Cert.Sage.Region2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)
open Cert.Sage.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two tiled inputs and the output take block row `t`, column block 0;
    the matrices and the one-row vectors always take block (0, 0). -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

theorem t_lt (t : Fin cfg2.N) : t.val < 25 := lt_of_lt_of_eq t.isLt N_2

/-- A row of the tile of neighbour means at point `t` is row `2000 t + p` of the array. -/
theorem read_agg (c : Dev nD) (t : Fin cfg2.N) (p : Fin 2000) (k : Fin 256) :
    iblk2 V c 0 t (ix2 p k) = V c main_v74 (ix2 ⟨t.val * 2000 + p.val, by have := t_lt t; have := p.isLt; omega⟩ k) := by
  show V c main_v74 (((cfg2.win 0).blk t).view.emb (ix2 p k)) = _
  refine congrArg (V c main_v74) (funext fun a => Fin.ext ?_)
  obtain ⟨e0, e1, -⟩ := idx_facts t
  match a with
  | ⟨0, _⟩ => show win2_0.index t (0 : Fin 2) * 2000 + 1 * p.val = t.val * 2000 + p.val; omega
  | ⟨1, _⟩ => show win2_0.index t (1 : Fin 2) * 256 + 1 * k.val = k.val; omega

/-- A row of the tile of the second hidden layer at point `t` is row `2000 t + p` of the array. -/
theorem read_h (c : Dev nD) (t : Fin cfg2.N) (p : Fin 2000) (k : Fin 256) :
    iblk2 V c 1 t (ix2 p k) = V c main_v55 (ix2 ⟨t.val * 2000 + p.val, by have := t_lt t; have := p.isLt; omega⟩ k) := by
  show V c main_v55 (((cfg2.win 1).blk t).view.emb (ix2 p k)) = _
  refine congrArg (V c main_v55) (funext fun a => Fin.ext ?_)
  obtain ⟨-, -, e0, e1, -⟩ := idx_facts t
  match a with
  | ⟨0, _⟩ => show win2_1.index t (0 : Fin 2) * 2000 + 1 * p.val = t.val * 2000 + p.val; omega
  | ⟨1, _⟩ => show win2_1.index t (1 : Fin 2) * 256 + 1 * k.val = k.val; omega

/-- The aggregate's matrix is fetched whole at every point. -/
theorem read_Wl (c : Dev nD) (t : Fin cfg2.N) (k : Fin 256) (q : Fin 128) :
    iblk2 V c 2 t (ix2 k q) = V c main_v75 (ix2 k q) := by
  show V c main_v75 (((cfg2.win 2).blk t).view.emb (ix2 k q)) = _
  refine congrArg (V c main_v75) (funext fun a => Fin.ext ?_)
  obtain ⟨-, -, -, -, e0, e1, -⟩ := idx_facts t
  match a with
  | ⟨0, _⟩ => show win2_2.index t (0 : Fin 2) * 256 + 1 * k.val = k.val; omega
  | ⟨1, _⟩ => show win2_2.index t (1 : Fin 2) * 128 + 1 * q.val = q.val; omega

/-- The bias is fetched whole at every point. -/
theorem read_bl (c : Dev nD) (t : Fin cfg2.N) (q : Fin 128) :
    iblk2 V c 3 t (ix2 0 q) = V c main_v77 (ix2 0 q) := by
  show V c main_v77 (((cfg2.win 3).blk t).view.emb (ix2 0 q)) = _
  refine congrArg (V c main_v77) (funext fun a => Fin.ext ?_)
  obtain ⟨-, -, -, -, -, -, e0, e1, -⟩ := idx_facts t
  match a with
  | ⟨0, _⟩ => show win2_3.index t (0 : Fin 2) * 1 + 1 * 0 = 0; omega
  | ⟨1, _⟩ => show win2_3.index t (1 : Fin 2) * 128 + 1 * q.val = q.val; omega

/-- The root matrix is fetched whole at every point. -/
theorem read_Wr (c : Dev nD) (t : Fin cfg2.N) (k : Fin 256) (q : Fin 128) :
    iblk2 V c 4 t (ix2 k q) = V c main_v76 (ix2 k q) := by
  show V c main_v76 (((cfg2.win 4).blk t).view.emb (ix2 k q)) = _
  refine congrArg (V c main_v76) (funext fun a => Fin.ext ?_)
  obtain ⟨-, -, -, -, -, -, -, -, e0, e1, -⟩ := idx_facts t
  match a with
  | ⟨0, _⟩ => show win2_4.index t (0 : Fin 2) * 256 + 1 * k.val = k.val; omega
  | ⟨1, _⟩ => show win2_4.index t (1 : Fin 2) * 128 + 1 * q.val = q.val; omega

/-- The third layer of the arrays the region finds. -/
def result (c : Dev nD) : S50000x128.Idx → EReal :=
  layer3 (V c main_v74) (V c main_v55) (matOf (V c main_v75)) (matOf (V c main_v76)) (vecOfRow (V c main_v77))

/-- What point `t` writes back is block `t` of that function of the arrays the region finds. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  refine (pay2_apply _ _ _ _ _ p q).trans ?_
  have h_agg : rowOf (iblk2 V c 0 t) p = rowOf (V c main_v74) ⟨t.val * 2000 + p.val, by have := t_lt t; have := p.isLt; omega⟩ :=
    funext fun k => read_agg V c t p k
  have h_h : rowOf (iblk2 V c 1 t) p = rowOf (V c main_v55) ⟨t.val * 2000 + p.val, by have := t_lt t; have := p.isLt; omega⟩ :=
    funext fun k => read_h V c t p k
  have h_Wl : matOf (iblk2 V c 2 t) = matOf (V c main_v75) := funext fun k => funext fun q => read_Wl V c t k q
  have h_bl : vecOfRow (iblk2 V c 3 t) = vecOfRow (V c main_v77) := funext fun q => read_bl V c t q
  have h_Wr : matOf (iblk2 V c 4 t) = matOf (V c main_v76) := funext fun k => funext fun q => read_Wr V c t k q
  rw [h_agg, h_h, h_Wl, h_bl, h_Wr]
  obtain ⟨-, -, -, -, -, -, -, -, -, -, e0, e1⟩ := idx_facts t
  show _ = result V c (((cfg2.win 5).blk t).view.emb (ix2 p q))
  unfold result layer3
  have hr : (⟨((((cfg2.win 5).blk t).view.emb (ix2 p q)) 0).val, ((((cfg2.win 5).blk t).view.emb (ix2 p q)) 0).isLt⟩ : Fin 50000)
      = ⟨t.val * 2000 + p.val, by have := t_lt t; have := p.isLt; omega⟩ :=
    Fin.ext (by show win2_5.index t (0 : Fin 2) * 2000 + 1 * p.val = t.val * 2000 + p.val; omega)
  have hq : (⟨((((cfg2.win 5).blk t).view.emb (ix2 p q)) 1).val, ((((cfg2.win 5).blk t).view.emb (ix2 p q)) 1).isLt⟩ : Fin 128) = q :=
    Fin.ext (by show win2_5.index t (1 : Fin 2) * 128 + 1 * q.val = q.val; omega)
  rw [hr, hq]

/-- An index of the output array is in point `t`'s block iff each coordinate is in the block's range. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v78).slice (win2_5.rect t)).set ↔ _
  rw [View.set_slice_whole, Rect.mem_set_unit]
  exact Iff.rfl

/-- The 25 blocks tile the array: row `r` is in the block of point `r / 2000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_5 _, ?_⟩
  rw [mem_blk]
  obtain ⟨-, -, -, -, -, -, -, -, -, -, e0, e1⟩ := idx_facts ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

/-- The region's output array after its run. -/
theorem final (c : Dev nD) : (dat2 V c).arrAt 5 cfg2.N = result V c :=
  (dat2 V c).arrAt_eq_of_cover 5 (result V c) (fun t _ => flushed_eq V c t) (cover)

end Cert.Sage.Region2

end
-- ==== Proof.Stretch0.lean ====
/-
  What the first region finds: the buffers after the first stretch of host operations, read back to the launched
  arguments.  The neighbour means of the features are the shared aggregation of the features and the edge list; the
  three weight matrices are the launched ones in another float format, which at the exact instance changes nothing;
  the four vectors are the launched ones laid out as one-row matrices; the features themselves are untouched.
-/
import proofs.«109566_j317827580339_1_alg».proof.Proof.Gen.KernelIdeal.Frame
import proofs.«109566_j317827580339_1_alg».proof.Proof.Spec
import proofs.«109566_j317827580339_1_alg».proof.Proof.Aggregate
import proofs.«109566_j317827580339_1_alg».proof.Proof.LibKeepdims
import Idealize.ShloMosaic.Lib.ValueIdx
import Idealize.ShloMosaic.Lib.Pipeline.Value
import Idealize.ShloMosaic.Lib.StableHlo.Run

set_option maxRecDepth 16384

noncomputable section

namespace Cert.Sage.Stretch0

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A vector laid out as a one-row matrix reads, along its row, as the vector. -/
theorem row_of_vec {C : Nat} (b : (⟨1, ![C]⟩ : Shape).Idx → EReal)
    (h : (⟨1, ![C]⟩ : Shape).ShapeCasts ⟨2, ![1, C]⟩) :
    vecOfRow (shapeCast (⟨2, ![1, C]⟩ : Shape) b h) = vecOf b := by
  exact funext fun q => Cert.Lib.Keepdims.shapeCast_a_1a_apply b h q

set_option maxHeartbeats 4000000 in
/-- The neighbour means the first region reads are the aggregation of the launched features and edge list. -/
theorem entry_agg (c : Dev nD) :
    V1 m ρ c main_v22 = agg128 (m ((c : Thread nD τ).loc main_arg0)) (m ((c : Thread nD τ).loc main_arg1)) := by
  show StableHlo.after hostOps0 (W0 m ρ c) (Proc.devRef .tc main_v22) = _
  after_results_simp
  unfold agg128 degree dstCol srcCol edgeSrc edgeDst
  rfl

/-- The edges' source nodes, computed once in this stretch and read again by the later ones. -/
theorem entry_src (c : Dev nD) : W1 m ρ c (Proc.devRef .tc main_v1) = edgeSrc (m ((c : Thread nD τ).loc main_arg1)) := by
  show StableHlo.after hostOps0 (W0 m ρ c) (Proc.devRef .tc main_v1) = _
  after_results_simp
  unfold edgeSrc
  rfl

/-- The edges' destination nodes, likewise. -/
theorem entry_dst (c : Dev nD) : W1 m ρ c (Proc.devRef .tc main_v3) = edgeDst (m ((c : Thread nD τ).loc main_arg1)) := by
  show StableHlo.after hostOps0 (W0 m ρ c) (Proc.devRef .tc main_v3) = _
  after_results_simp
  unfold edgeDst
  rfl

/-- The features the first region reads are the launched ones. -/
theorem entry_x (c : Dev nD) : V1 m ρ c main_arg0 = m ((c : Thread nD τ).loc main_arg0) := by
  show StableHlo.after hostOps0 (W0 m ρ c) (Proc.devRef .tc main_arg0) = _
  after_results_simp <;> rfl

set_option maxHeartbeats 4000000 in
/-- The three matrices, entry by entry, are the launched ones. -/
theorem entry_Wl (c : Dev nD) : matOf (V1 m ρ c main_v23) = matOf (m ((c : Thread nD τ).loc main_arg2)) := by
  show matOf (StableHlo.after hostOps0 (W0 m ρ c) (Proc.devRef .tc main_v23)) = _
  after_results_simp <;> rfl
set_option maxHeartbeats 4000000 in
theorem entry_Wr (c : Dev nD) : matOf (V1 m ρ c main_v24) = matOf (m ((c : Thread nD τ).loc main_arg4)) := by
  show matOf (StableHlo.after hostOps0 (W0 m ρ c) (Proc.devRef .tc main_v24)) = _
  after_results_simp <;> rfl
set_option maxHeartbeats 4000000 in
theorem entry_Wsk (c : Dev nD) : matOf (V1 m ρ c main_v25) = matOf (m ((c : Thread nD τ).loc main_arg7)) := by
  show matOf (StableHlo.after hostOps0 (W0 m ρ c) (Proc.devRef .tc main_v25)) = _
  after_results_simp <;> rfl

set_option maxHeartbeats 4000000 in
/-- The four one-row vectors, along their rows, are the launched vectors. -/
theorem entry_bl (c : Dev nD) : vecOfRow (V1 m ρ c main_v26) = vecOf (m ((c : Thread nD τ).loc main_arg3)) := by
  have e : V1 m ρ c main_v26 = shapeCast S1x256 (m ((c : Thread nD τ).loc main_arg3)) shapeCasts_S256_S1x256 := by
    show StableHlo.after hostOps0 (W0 m ρ c) (Proc.devRef .tc main_v26) = _
    after_results_simp <;> rfl
  rw [e]; exact row_of_vec _ _
set_option maxHeartbeats 4000000 in
theorem entry_g (c : Dev nD) : vecOfRow (V1 m ρ c main_v27) = vecOf (m ((c : Thread nD τ).loc main_arg5)) := by
  have e : V1 m ρ c main_v27 = shapeCast S1x256 (m ((c : Thread nD τ).loc main_arg5)) shapeCasts_S256_S1x256 := by
    show StableHlo.after hostOps0 (W0 m ρ c) (Proc.devRef .tc main_v27) = _
    after_results_simp <;> rfl
  rw [e]; exact row_of_vec _ _
set_option maxHeartbeats 4000000 in
theorem entry_be (c : Dev nD) : vecOfRow (V1 m ρ c main_v28) = vecOf (m ((c : Thread nD τ).loc main_arg6)) := by
  have e : V1 m ρ c main_v28 = shapeCast S1x256 (m ((c : Thread nD τ).loc main_arg6)) shapeCasts_S256_S1x256 := by
    show StableHlo.after hostOps0 (W0 m ρ c) (Proc.devRef .tc main_v28) = _
    after_results_simp <;> rfl
  rw [e]; exact row_of_vec _ _
set_option maxHeartbeats 4000000 in
theorem entry_bsk (c : Dev nD) : vecOfRow (V1 m ρ c main_v29) = vecOf (m ((c : Thread nD τ).loc main_arg8)) := by
  have e : V1 m ρ c main_v29 = shapeCast S1x256 (m ((c : Thread nD τ).loc main_arg8)) shapeCasts_S256_S1x256 := by
    show StableHlo.after hostOps0 (W0 m ρ c) (Proc.devRef .tc main_v29) = _
    after_results_simp <;> rfl
  rw [e]; exact row_of_vec _ _

end Cert.Sage.Stretch0

end
-- ==== Proof.Stretch1.lean ====
/-
  What the second region finds: the buffers after the second stretch of host operations.  The neighbour means are the
  shared aggregation of the first region's output and the launched edge list (whose two rows were split off in the
  first stretch and are still in place); the first region's output itself is untouched; the two weight matrices and
  the three vectors are the launched ones, as before.
-/
import proofs.«109566_j317827580339_1_alg».proof.Proof.Gen.KernelIdeal.Frame
import proofs.«109566_j317827580339_1_alg».proof.Proof.Spec
import proofs.«109566_j317827580339_1_alg».proof.Proof.Aggregate
import proofs.«109566_j317827580339_1_alg».proof.Proof.Stretch0
import Idealize.ShloMosaic.Lib.ValueIdx
import Idealize.ShloMosaic.Lib.Pipeline.Value
import Idealize.ShloMosaic.Lib.StableHlo.Run

set_option maxRecDepth 16384

noncomputable section

namespace Cert.Sage.Stretch1

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Buffers the first region did not write are as the first stretch left them -/

theorem src_W2 (c : Dev nD) : W2 m ρ c (Proc.devRef .tc main_v1) = edgeSrc (m ((c : Thread nD τ).loc main_arg1)) :=
  (W2_of_ne m ρ c main_v1 (by decide)).trans (Stretch0.entry_src m ρ c)
theorem dst_W2 (c : Dev nD) : W2 m ρ c (Proc.devRef .tc main_v3) = edgeDst (m ((c : Thread nD τ).loc main_arg1)) :=
  (W2_of_ne m ρ c main_v3 (by decide)).trans (Stretch0.entry_dst m ρ c)
theorem arg9_W2 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)
theorem arg10_W2 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)
theorem arg11_W2 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)
theorem arg12_W2 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results_simp <;> rfl)
theorem arg13_W2 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results_simp <;> rfl)
theorem arg14_W2 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results_simp <;> rfl)
theorem arg15_W2 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results_simp <;> rfl)
theorem arg16_W2 (c : Dev nD) : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results_simp <;> rfl)

/-! ## What the second region reads -/

set_option maxHeartbeats 4000000 in
/-- Its neighbour means are the aggregation of the first region's output and the launched edge list. -/
theorem entry_agg (c : Dev nD) :
    V3 m ρ c main_v49 = agg256 (W2 m ρ c (Proc.devRef .tc main_v30)) (m ((c : Thread nD τ).loc main_arg1)) := by
  show StableHlo.after hostOps1 (W2 m ρ c) (Proc.devRef .tc main_v49) = _
  after_results_simp
  rw [src_W2, dst_W2]
  unfold agg256 degree dstCol srcCol
  rfl

/-- The first region's output is untouched by the stretch. -/
theorem entry_h (c : Dev nD) : V3 m ρ c main_v30 = W2 m ρ c (Proc.devRef .tc main_v30) := by
  show StableHlo.after hostOps1 (W2 m ρ c) (Proc.devRef .tc main_v30) = _
  after_results_simp <;> rfl

/-- The edge rows are untouched by the stretch. -/
theorem src_W3 (c : Dev nD) : W3 m ρ c (Proc.devRef .tc main_v1) = edgeSrc (m ((c : Thread nD τ).loc main_arg1)) := by
  refine Eq.trans ?_ (src_W2 m ρ c)
  show StableHlo.after hostOps1 (W2 m ρ c) (Proc.devRef .tc main_v1) = _
  after_results_simp <;> rfl
theorem dst_W3 (c : Dev nD) : W3 m ρ c (Proc.devRef .tc main_v3) = edgeDst (m ((c : Thread nD τ).loc main_arg1)) := by
  refine Eq.trans ?_ (dst_W2 m ρ c)
  show StableHlo.after hostOps1 (W2 m ρ c) (Proc.devRef .tc main_v3) = _
  after_results_simp <;> rfl
theorem arg14_W3 (c : Dev nD) : W3 m ρ c (Proc.devRef .tc main_arg14) = m ((c : Thread nD τ).loc main_arg14) := by
  refine Eq.trans ?_ (arg14_W2 m ρ c)
  show StableHlo.after hostOps1 (W2 m ρ c) (Proc.devRef .tc main_arg14) = _
  after_results_simp <;> rfl
theorem arg15_W3 (c : Dev nD) : W3 m ρ c (Proc.devRef .tc main_arg15) = m ((c : Thread nD τ).loc main_arg15) := by
  refine Eq.trans ?_ (arg15_W2 m ρ c)
  show StableHlo.after hostOps1 (W2 m ρ c) (Proc.devRef .tc main_arg15) = _
  after_results_simp <;> rfl
theorem arg16_W3 (c : Dev nD) : W3 m ρ c (Proc.devRef .tc main_arg16) = m ((c : Thread nD τ).loc main_arg16) := by
  refine Eq.trans ?_ (arg16_W2 m ρ c)
  show StableHlo.after hostOps1 (W2 m ρ c) (Proc.devRef .tc main_arg16) = _
  after_results_simp <;> rfl

set_option maxHeartbeats 4000000 in
/-- The two matrices, entry by entry, are the launched ones. -/
theorem entry_Wl (c : Dev nD) : matOf (V3 m ρ c main_v50) = matOf (m ((c : Thread nD τ).loc main_arg9)) := by
  show matOf (StableHlo.after hostOps1 (W2 m ρ c) (Proc.devRef .tc main_v50)) = _
  after_results_simp
  rw [arg9_W2]
  rfl

set_option maxHeartbeats 4000000 in
theorem entry_Wr (c : Dev nD) : matOf (V3 m ρ c main_v51) = matOf (m ((c : Thread nD τ).loc main_arg11)) := by
  show matOf (StableHlo.after hostOps1 (W2 m ρ c) (Proc.devRef .tc main_v51)) = _
  after_results_simp
  rw [arg11_W2]
  rfl

set_option maxHeartbeats 4000000 in
/-- The three one-row vectors, along their rows, are the launched vectors. -/
theorem entry_bl (c : Dev nD) : vecOfRow (V3 m ρ c main_v52) = vecOf (m ((c : Thread nD τ).loc main_arg10)) := by
  have e : V3 m ρ c main_v52 = shapeCast S1x256 (m ((c : Thread nD τ).loc main_arg10)) shapeCasts_S256_S1x256 := by
    show StableHlo.after hostOps1 (W2 m ρ c) (Proc.devRef .tc main_v52) = _
    after_results_simp
    rw [arg10_W2]
    rfl
  rw [e]; exact Stretch0.row_of_vec _ _

set_option maxHeartbeats 4000000 in
theorem entry_g (c : Dev nD) : vecOfRow (V3 m ρ c main_v53) = vecOf (m ((c : Thread nD τ).loc main_arg12)) := by
  have e : V3 m ρ c main_v53 = shapeCast S1x256 (m ((c : Thread nD τ).loc main_arg12)) shapeCasts_S256_S1x256 := by
    show StableHlo.after hostOps1 (W2 m ρ c) (Proc.devRef .tc main_v53) = _
    after_results_simp
    rw [arg12_W2]
    rfl
  rw [e]; exact Stretch0.row_of_vec _ _

set_option maxHeartbeats 4000000 in
theorem entry_be (c : Dev nD) : vecOfRow (V3 m ρ c main_v54) = vecOf (m ((c : Thread nD τ).loc main_arg13)) := by
  have e : V3 m ρ c main_v54 = shapeCast S1x256 (m ((c : Thread nD τ).loc main_arg13)) shapeCasts_S256_S1x256 := by
    show StableHlo.after hostOps1 (W2 m ρ c) (Proc.devRef .tc main_v54) = _
    after_results_simp
    rw [arg13_W2]
    rfl
  rw [e]; exact Stretch0.row_of_vec _ _

end Cert.Sage.Stretch1

end
-- ==== Proof.Stretch2.lean ====
/-
  What the third region finds: the buffers after the third stretch of host operations.  The neighbour means are the
  shared aggregation of the second region's output and the launched edge list; the second region's output itself is
  untouched; the two weight matrices and the bias are the launched ones.
-/
import proofs.«109566_j317827580339_1_alg».proof.Proof.Gen.KernelIdeal.Frame
import proofs.«109566_j317827580339_1_alg».proof.Proof.Spec
import proofs.«109566_j317827580339_1_alg».proof.Proof.Aggregate
import proofs.«109566_j317827580339_1_alg».proof.Proof.Stretch0
import proofs.«109566_j317827580339_1_alg».proof.Proof.Stretch1
import Idealize.ShloMosaic.Lib.ValueIdx
import Idealize.ShloMosaic.Lib.Pipeline.Value
import Idealize.ShloMosaic.Lib.StableHlo.Run

set_option maxRecDepth 16384

noncomputable section

namespace Cert.Sage.Stretch2

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Buffers the second region did not write are as the second stretch left them -/

theorem src_W4 (c : Dev nD) : W4 m ρ c (Proc.devRef .tc main_v1) = edgeSrc (m ((c : Thread nD τ).loc main_arg1)) :=
  (W4_of_ne m ρ c main_v1 (by decide)).trans (Stretch1.src_W3 m ρ c)
theorem dst_W4 (c : Dev nD) : W4 m ρ c (Proc.devRef .tc main_v3) = edgeDst (m ((c : Thread nD τ).loc main_arg1)) :=
  (W4_of_ne m ρ c main_v3 (by decide)).trans (Stretch1.dst_W3 m ρ c)
theorem arg14_W4 (c : Dev nD) : W4 m ρ c (Proc.devRef .tc main_arg14) = m ((c : Thread nD τ).loc main_arg14) :=
  (W4_of_ne m ρ c main_arg14 (by decide)).trans (Stretch1.arg14_W3 m ρ c)
theorem arg15_W4 (c : Dev nD) : W4 m ρ c (Proc.devRef .tc main_arg15) = m ((c : Thread nD τ).loc main_arg15) :=
  (W4_of_ne m ρ c main_arg15 (by decide)).trans (Stretch1.arg15_W3 m ρ c)
theorem arg16_W4 (c : Dev nD) : W4 m ρ c (Proc.devRef .tc main_arg16) = m ((c : Thread nD τ).loc main_arg16) :=
  (W4_of_ne m ρ c main_arg16 (by decide)).trans (Stretch1.arg16_W3 m ρ c)

/-! ## What the third region reads -/

set_option maxHeartbeats 4000000 in
/-- Its neighbour means are the aggregation of the second region's output and the launched edge list. -/
theorem entry_agg (c : Dev nD) :
    V5 m ρ c main_v74 = agg256 (W4 m ρ c (Proc.devRef .tc main_v55)) (m ((c : Thread nD τ).loc main_arg1)) := by
  show StableHlo.after hostOps2 (W4 m ρ c) (Proc.devRef .tc main_v74) = _
  after_results_simp
  rw [src_W4, dst_W4]
  unfold agg256 degree dstCol srcCol
  rfl

/-- The second region's output is untouched by the stretch. -/
theorem entry_h (c : Dev nD) : V5 m ρ c main_v55 = W4 m ρ c (Proc.devRef .tc main_v55) := by
  show StableHlo.after hostOps2 (W4 m ρ c) (Proc.devRef .tc main_v55) = _
  after_results_simp <;> rfl

set_option maxHeartbeats 4000000 in
/-- The two matrices, entry by entry, are the launched ones. -/
theorem entry_Wl (c : Dev nD) : matOf (V5 m ρ c main_v75) = matOf (m ((c : Thread nD τ).loc main_arg14)) := by
  show matOf (StableHlo.after hostOps2 (W4 m ρ c) (Proc.devRef .tc main_v75)) = _
  after_results_simp
  rw [arg14_W4]
  rfl

set_option maxHeartbeats 4000000 in
theorem entry_Wr (c : Dev nD) : matOf (V5 m ρ c main_v76) = matOf (m ((c : Thread nD τ).loc main_arg16)) := by
  show matOf (StableHlo.after hostOps2 (W4 m ρ c) (Proc.devRef .tc main_v76)) = _
  after_results_simp
  rw [arg16_W4]
  rfl

set_option maxHeartbeats 4000000 in
/-- The bias, along its row, is the launched vector. -/
theorem entry_bl (c : Dev nD) : vecOfRow (V5 m ρ c main_v77) = vecOf (m ((c : Thread nD τ).loc main_arg15)) := by
  have e : V5 m ρ c main_v77 = shapeCast S1x128 (m ((c : Thread nD τ).loc main_arg15)) shapeCasts_S128_S1x128 := by
    show StableHlo.after hostOps2 (W4 m ρ c) (Proc.devRef .tc main_v77) = _
    after_results_simp
    rw [arg15_W4]
    rfl
  rw [e]; exact Stretch0.row_of_vec _ _

end Cert.Sage.Stretch2

end
-- ==== Proof.KernelValue.lean ====
/-
  The idealized kernel's result as the network of its arguments.

  The run is read boundary by boundary.  What the first region finds is the launched arguments and their neighbour
  means, so its output array is the first hidden layer of the arguments; the second stretch and region turn that into
  the second hidden layer; the third into the result.  Each step is a region's whole-array function of what it found,
  with what it found read back through the preceding stretch of host operations.
-/
import proofs.«109566_j317827580339_1_alg».proof.Proof.KernelRun
import proofs.«109566_j317827580339_1_alg».proof.Proof.Network
import proofs.«109566_j317827580339_1_alg».proof.Proof.Region0
import proofs.«109566_j317827580339_1_alg».proof.Proof.Region1
import proofs.«109566_j317827580339_1_alg».proof.Proof.Region2
import proofs.«109566_j317827580339_1_alg».proof.Proof.Stretch0
import proofs.«109566_j317827580339_1_alg».proof.Proof.Stretch1
import proofs.«109566_j317827580339_1_alg».proof.Proof.Stretch2

set_option maxRecDepth 16384

noncomputable section

namespace Cert.Sage.Kernel

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first region its output array is the first hidden layer of the launched arguments. -/
theorem hidden1_eq (c : Dev nD) :
    W2 m ρ c (Proc.devRef .tc main_v30)
      = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 9).trans ?_
  rw [Region0.final (V1 m ρ) c]
  unfold Region0.result hidden1
  rw [Stretch0.entry_agg, Stretch0.entry_x, Stretch0.entry_Wl, Stretch0.entry_Wr, Stretch0.entry_Wsk,
    Stretch0.entry_bl, Stretch0.entry_g, Stretch0.entry_be, Stretch0.entry_bsk]

/-- After the second region its output array is the second hidden layer, of the first. -/
theorem hidden2_eq (c : Dev nD) :
    W4 m ρ c (Proc.devRef .tc main_v55)
      = hidden2 (W2 m ρ c (Proc.devRef .tc main_v30)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 7).trans ?_
  rw [Region1.final (V3 m ρ) c]
  unfold Region1.result hidden2
  rw [Stretch1.entry_agg, Stretch1.entry_h, Stretch1.entry_Wl, Stretch1.entry_Wr,
    Stretch1.entry_bl, Stretch1.entry_g, Stretch1.entry_be]

/-- After the third region its output array is the output layer, of the second hidden layer. -/
theorem output_eq (c : Dev nD) :
    W6 m ρ c (Proc.devRef .tc main_v78)
      = output (W4 m ρ c (Proc.devRef .tc main_v55)) (m ((c : Thread nD τ).loc main_arg1)) (m ((c : Thread nD τ).loc main_arg14)) (m ((c : Thread nD τ).loc main_arg15)) (m ((c : Thread nD τ).loc main_arg16)) := by
  refine (W6_arr m ρ c 5).trans ?_
  rw [Region2.final (V5 m ρ) c]
  unfold Region2.result output
  rw [Stretch2.entry_agg, Stretch2.entry_h, Stretch2.entry_Wl, Stretch2.entry_Wr, Stretch2.entry_bl]

/-- The result buffer at the last boundary is the network of the launched arguments. -/
theorem result_eq (c : Dev nD) :
    W6 m ρ c (Proc.devRef .tc main_v78) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [output_eq, hidden2_eq, hidden1_eq]
  rfl

/-- Every weakly fair execution of the idealized kernel terminates without a fault, with the result buffer at the
    network of the launched arguments and each argument array as launched. -/
theorem run : θ_run defs (onTc (τ := τ) (main (F := Ideal))) ⟨m, fun _ => 0, ρ⟩ (fun r => ∀ c : Dev nD,
      r.2.mem ((c.tc : Thread nD τ).loc main_v78) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result_eq m ρ c), (h c).2⟩) (Cert.KernelIdeal.Result.run_result m ρ)

end Cert.Sage.Kernel

end
-- ==== Proof.RefCommon.lean ====
/-
  Two facts about the specification that every layer of the reference uses: an entry of a layer read at a pair of
  coordinates is the layer's row function at those coordinates, and a sum divided by the float `256` is the mean of
  the row that was summed.
-/
import proofs.«109566_j317827580339_1_alg».proof.Proof.Spec

noncomputable section

open scoped BigOperators

namespace Cert.Sage.Ref

open Cert.Sage Idealize.ShloMosaic Idealize.ShloMosaic.ValueIdx

/-- A quotient by the float `256` whose numerator is the sum of a row of 256 entries is that row's mean. -/
theorem mean256_of {h : Fin 256 → EReal} {s : EReal} (e : s = ∑ c : Fin 256, h c) :
    Ideal.div s (Ideal.ofBits .f32 0x43800000#32) = mean256 h := by
  rw [e]; rfl

/-- The first layer at row `r`, column `c`. -/
theorem layer1_at (A X : (⟨2, ![50000, 128]⟩ : Shape).Idx → EReal) (Wl Wr Wsk : Fin 128 → Fin 256 → EReal)
    (bl g be bsk : Fin 256 → EReal) (r : Fin 50000) (c : Fin 256) :
    layer1 A X Wl Wr Wsk bl g be bsk (ix2 r c) = layer1Row (rowOf A r) (rowOf X r) Wl Wr Wsk bl g be bsk c := rfl

/-- The second layer at row `r`, column `c`. -/
theorem layer2_at (A X : (⟨2, ![50000, 256]⟩ : Shape).Idx → EReal) (Wl Wr : Fin 256 → Fin 256 → EReal)
    (bl g be : Fin 256 → EReal) (r : Fin 50000) (c : Fin 256) :
    layer2 A X Wl Wr bl g be (ix2 r c) = layer2Row (rowOf A r) (rowOf X r) Wl Wr bl g be c := rfl

/-- The third layer at row `r`, column `c`. -/
theorem layer3_at (A X : (⟨2, ![50000, 256]⟩ : Shape).Idx → EReal) (Wl Wr : Fin 256 → Fin 128 → EReal)
    (bl : Fin 128 → EReal) (r : Fin 50000) (c : Fin 128) :
    layer3 A X Wl Wr bl (ix2 r c) = layer3Row (rowOf A r) (rowOf X r) Wl Wr bl c := rfl

end Cert.Sage.Ref

end
-- ==== Proof.RefLayer1.lean ====
/-
  The reference's first layer is the specification's `layer1`.

  The reference computes the layer with whole-array operations: two products of an array of rows with a matrix, a
  bias broadcast along the rows, then per row the sum of the 256 entries divided by `256` (the mean), the same of the
  squared deviations, the reciprocal square root, the affine map, the clip at zero, and the projected skip term.  Read at
  row `r` and column `c`, every one of these depends only on row `r` of the two row-indexed arrays, and is the
  matching piece of `layer1Row`: the stages are read one after another, each at a pair of coordinates.  No sum is
  regrouped; only the zero that starts a sum is evaluated.
-/
import proofs.«109566_j317827580339_1_alg».proof.Proof.Gen.ReferenceIdeal.Read
import proofs.«109566_j317827580339_1_alg».proof.Proof.Spec
import proofs.«109566_j317827580339_1_alg».proof.Proof.RefCommon
import Idealize.ShloMosaic.PureOps.Ideal.Laws
import Idealize.ShloMosaic.Lib.ValueIdx

noncomputable section

open scoped BigOperators

namespace Cert.Sage.Ref

open Cert.ReferenceIdeal Cert.ReferenceIdeal.Read Cert.Sage Idealize.ShloMosaic Idealize.ShloMosaic.ValueIdx

variable (x0 : (⟨S50000x128, .f32⟩ : BufTy).Contents (Elt Ideal)) (x1 : (⟨S2x640000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S256, .f32⟩ : BufTy).Contents (Elt Ideal)) (x7 : (⟨S128x256, .f32⟩ : BufTy).Contents (Elt Ideal)) (x8 : (⟨S256, .f32⟩ : BufTy).Contents (Elt Ideal))

/-- Row `r` of the first layer before normalisation: the convolution of the neighbour means and the features. -/
def pre1 (r : Fin 50000) : Fin 256 → EReal :=
  linRow (rowOf (val_main_v22 (F := Ideal) x0 x1) r) (rowOf x0 r) (matOf x2) (matOf x4) (vecOf x3)

/-! ### The three products with a matrix: entry `(r, c)` is the sum over `k` of row `r` times column `c` -/

theorem v23_at (r : Fin 50000) (c : Fin 256) :
    val_main_v23 (F := Ideal) x0 x1 x2 (ix2 r c)
      = ∑ k : Fin 128, val_main_v22 (F := Ideal) x0 x1 (ix2 r k) * x2 (ix2 k c) := by
  rw [val_main_v23_apply]
  refine Finset.sum_congr rfl fun k _ => ?_
  rw [show lidx_main_v23 (ix2 r c) k = ix2 r k from funext fun a => Fin.ext (by match a with | ⟨0, _⟩ => rfl | ⟨1, _⟩ => rfl),
    show ridx_main_v23 (ix2 r c) k = ix2 k c from funext fun a => Fin.ext (by match a with | ⟨0, _⟩ => rfl | ⟨1, _⟩ => rfl)]

theorem v27_at (r : Fin 50000) (c : Fin 256) :
    val_main_v27 (F := Ideal) x0 x4 (ix2 r c) = ∑ k : Fin 128, x0 (ix2 r k) * x4 (ix2 k c) := by
  rw [val_main_v27_apply]
  refine Finset.sum_congr rfl fun k _ => ?_
  rw [show lidx_main_v27 (ix2 r c) k = ix2 r k from funext fun a => Fin.ext (by match a with | ⟨0, _⟩ => rfl | ⟨1, _⟩ => rfl),
    show ridx_main_v27 (ix2 r c) k = ix2 k c from funext fun a => Fin.ext (by match a with | ⟨0, _⟩ => rfl | ⟨1, _⟩ => rfl)]

theorem v54_at (r : Fin 50000) (c : Fin 256) :
    val_main_v54 (F := Ideal) x0 x7 (ix2 r c) = ∑ k : Fin 128, x0 (ix2 r k) * x7 (ix2 k c) := by
  rw [val_main_v54_apply]
  refine Finset.sum_congr rfl fun k _ => ?_
  rw [show lidx_main_v54 (ix2 r c) k = ix2 r k from funext fun a => Fin.ext (by match a with | ⟨0, _⟩ => rfl | ⟨1, _⟩ => rfl),
    show ridx_main_v54 (ix2 r c) k = ix2 k c from funext fun a => Fin.ext (by match a with | ⟨0, _⟩ => rfl | ⟨1, _⟩ => rfl)]

/-! ### The four vectors broadcast along the rows: entry `(r, c)` is the vector's entry `c` -/

theorem v25_at (r : Fin 50000) (c : Fin 256) : val_main_v25 (F := Ideal) x3 (ix2 r c) = x3 (ix1 c) := by
  rw [val_main_v25_apply, val_main_v24_apply]
  exact congrArg x3 (funext fun a => Fin.ext (by match a with | ⟨0, _⟩ => rfl))

theorem v48_at (r : Fin 50000) (c : Fin 256) : val_main_v48 (F := Ideal) x5 (ix2 r c) = x5 (ix1 c) := by
  rw [val_main_v48_apply, val_main_v47_apply]
  exact congrArg x5 (funext fun a => Fin.ext (by match a with | ⟨0, _⟩ => rfl))

theorem v51_at (r : Fin 50000) (c : Fin 256) : val_main_v51 (F := Ideal) x6 (ix2 r c) = x6 (ix1 c) := by
  rw [val_main_v51_apply, val_main_v50_apply]
  exact congrArg x6 (funext fun a => Fin.ext (by match a with | ⟨0, _⟩ => rfl))

theorem v56_at (r : Fin 50000) (c : Fin 256) : val_main_v56 (F := Ideal) x8 (ix2 r c) = x8 (ix1 c) := by
  rw [val_main_v56_apply, val_main_v55_apply]
  exact congrArg x8 (funext fun a => Fin.ext (by match a with | ⟨0, _⟩ => rfl))

/-! ### The convolution, its row mean, the deviations, their mean square, the scale -/

/-- The convolution at `(r, c)`: both products and the bias, grouped as `linRow` groups them. -/
theorem v28_at (r : Fin 50000) (c : Fin 256) :
    val_main_v28 (F := Ideal) x0 x1 x2 x3 x4 (ix2 r c) = pre1 x0 x1 x2 x3 x4 r c := by
  rw [val_main_v28_apply, val_main_v26_apply, v23_at, v25_at, v27_at]
  rfl

/-- The row mean, held in a one-column array: the zero-started sum of row `r` over `256`. -/
theorem v32_at (r : Fin 50000) (j : Fin 1) :
    val_main_v32 (F := Ideal) x0 x1 x2 x3 x4 (ix2 r j) = mean256 (pre1 x0 x1 x2 x3 x4 r) := by
  rw [val_main_v32_apply, val_main_v30_apply, val_main_v31_apply, val_main_v29_apply, val_main_cst_4_apply,
    val_main_cst_5_apply]
  simp only [Ideal.hostDivf_def, Ideal.ofBits_def, Ideal.ofBits_zero_f32, zero_add]
  refine mean256_of (Finset.sum_congr rfl fun k _ => ?_)
  rw [show idx_main_v29 (idx_main_v30 (ix2 r j)) k = ix2 r k from funext fun a => Fin.ext (by match a with | ⟨0, _⟩ => rfl | ⟨1, _⟩ => rfl), v28_at]

/-- The deviation from the row mean (the copy that is squared). -/
theorem v34_at (r : Fin 50000) (c : Fin 256) :
    val_main_v34 (F := Ideal) x0 x1 x2 x3 x4 (ix2 r c) = pre1 x0 x1 x2 x3 x4 r c - mean256 (pre1 x0 x1 x2 x3 x4 r) := by
  rw [val_main_v34_apply, val_main_v33_apply,
    show idx_main_v33 (ix2 r c) = ix2 r (0 : Fin 1) from funext fun a => Fin.ext (by match a with | ⟨0, _⟩ => rfl | ⟨1, _⟩ => rfl), v32_at, v28_at]
  rfl

/-- The deviation from the row mean (the copy that is scaled). -/
theorem v41_at (r : Fin 50000) (c : Fin 256) :
    val_main_v41 (F := Ideal) x0 x1 x2 x3 x4 (ix2 r c) = pre1 x0 x1 x2 x3 x4 r c - mean256 (pre1 x0 x1 x2 x3 x4 r) := by
  rw [val_main_v41_apply, val_main_v40_apply,
    show idx_main_v40 (ix2 r c) = ix2 r (0 : Fin 1) from funext fun a => Fin.ext (by match a with | ⟨0, _⟩ => rfl | ⟨1, _⟩ => rfl), v32_at, v28_at]
  rfl

/-- The mean squared deviation of row `r`. -/
theorem v39_at (r : Fin 50000) (j : Fin 1) :
    val_main_v39 (F := Ideal) x0 x1 x2 x3 x4 (ix2 r j)
      = mean256 (fun k => (pre1 x0 x1 x2 x3 x4 r k - mean256 (pre1 x0 x1 x2 x3 x4 r))
          * (pre1 x0 x1 x2 x3 x4 r k - mean256 (pre1 x0 x1 x2 x3 x4 r))) := by
  rw [val_main_v39_apply, val_main_v37_apply, val_main_v38_apply, val_main_v36_apply, val_main_cst_6_apply,
    val_main_cst_7_apply]
  simp only [Ideal.hostDivf_def, Ideal.ofBits_def, Ideal.ofBits_zero_f32, zero_add]
  refine mean256_of (Finset.sum_congr rfl fun k _ => ?_)
  rw [show idx_main_v36 (idx_main_v37 (ix2 r j)) k = ix2 r k from funext fun a => Fin.ext (by match a with | ⟨0, _⟩ => rfl | ⟨1, _⟩ => rfl), val_main_v35_apply, v34_at]
  rfl

/-- The scale of row `r`: the reciprocal square root of the mean squared deviation plus the small constant. -/
theorem v45_at (r : Fin 50000) (c : Fin 256) :
    val_main_v45 (F := Ideal) x0 x1 x2 x3 x4 (ix2 r c)
      = Ideal.rsqrt (mean256 (fun k => (pre1 x0 x1 x2 x3 x4 r k - mean256 (pre1 x0 x1 x2 x3 x4 r))
          * (pre1 x0 x1 x2 x3 x4 r k - mean256 (pre1 x0 x1 x2 x3 x4 r))) + Ideal.ofBits .f32 0x3727C5AC#32) := by
  rw [val_main_v45_apply, show idx_main_v45 (ix2 r c) = ix2 r (0 : Fin 1) from funext fun a => Fin.ext (by match a with | ⟨0, _⟩ => rfl | ⟨1, _⟩ => rfl),
    val_main_v44_apply, val_main_v43_apply, v39_at, val_main_v42_apply, val_main_cst_8_apply]
  rfl

/-- The normalised row after the affine map. -/
theorem v52_at (r : Fin 50000) (c : Fin 256) :
    val_main_v52 (F := Ideal) x0 x1 x2 x3 x4 x5 x6 (ix2 r c) = normRow (pre1 x0 x1 x2 x3 x4 r) (vecOf x5) (vecOf x6) c := by
  rw [val_main_v52_apply, val_main_v49_apply, val_main_v46_apply, v41_at, v45_at, v48_at, v51_at]
  rfl

/-- The projected skip term. -/
theorem v57_at (r : Fin 50000) (c : Fin 256) :
    val_main_v57 (F := Ideal) x0 x7 x8 (ix2 r c) = (∑ k : Fin 128, x0 (ix2 r k) * x7 (ix2 k c)) + x8 (ix1 c) := by
  rw [val_main_v57_apply, v54_at, v56_at]
  rfl

/-- The array the clip compares with: the zero word everywhere. -/
theorem relu1_zero_at (i : S50000x256.Idx) :
    val_main_call0_v0 (F := Ideal) i = Ideal.ofBits .f32 0x00000000#32 := by
  rw [val_main_call0_v0_apply, val_main_call0_cst_apply]
  rfl

/-- The reference's first layer is `layer1` of the neighbour means and the features. -/
theorem layer1_eq :
    val_main_v58 (F := Ideal) x0 x1 x2 x3 x4 x5 x6 x7 x8
      = layer1 (val_main_v22 (F := Ideal) x0 x1) x0 (matOf x2) (matOf x4) (matOf x7) (vecOf x3) (vecOf x5) (vecOf x6)
          (vecOf x8) := by
  funext i
  obtain ⟨r, c, rfl⟩ : ∃ (r : Fin 50000) (c : Fin 256), i = ix2 r c := ⟨i 0, i 1, eq_ix2 i⟩
  rw [val_main_v58_apply, val_main_v53_apply, v52_at, relu1_zero_at, v57_at, layer1_at]
  rfl

end Cert.Sage.Ref

end
-- ==== Proof.RefLayer2.lean ====
/-
  The reference's second layer is the specification's `layer2`.

  The same whole-array operations as in the first layer, now on rows of 256 entries: the neighbour means of the first
  layer's result and that result itself through two square matrices, the bias, the row normalisation, the affine map
  and the clip at zero; the skip term is the first layer's entry itself.  Each stage is read at row `r` and column
  `c`, where it is the matching piece of `layer2Row`.  No sum is regrouped; only the zero that starts a sum is
  evaluated.
-/
import proofs.«109566_j317827580339_1_alg».proof.Proof.Gen.ReferenceIdeal.Read
import proofs.«109566_j317827580339_1_alg».proof.Proof.Spec
import proofs.«109566_j317827580339_1_alg».proof.Proof.RefCommon
import Idealize.ShloMosaic.PureOps.Ideal.Laws
import Idealize.ShloMosaic.Lib.ValueIdx

noncomputable section

open scoped BigOperators

namespace Cert.Sage.Ref

open Cert.ReferenceIdeal Cert.ReferenceIdeal.Read Cert.Sage Idealize.ShloMosaic Idealize.ShloMosaic.ValueIdx

variable (x0 : (⟨S50000x128, .f32⟩ : BufTy).Contents (Elt Ideal)) (x1 : (⟨S2x640000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S256, .f32⟩ : BufTy).Contents (Elt Ideal)) (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal))

/-- Row `r` of the second layer before normalisation: the convolution of the first layer's neighbour means and the
    first layer's result. -/
def pre2 (r : Fin 50000) : Fin 256 → EReal :=
  linRow (rowOf (val_main_v77 (F := Ideal) x0 x1 x2 x3 x4 x5 x6 x7 x8) r) (rowOf (val_main_v58 (F := Ideal) x0 x1 x2 x3 x4 x5 x6 x7 x8) r) (matOf x9)
    (matOf x11) (vecOf x10)

/-! ### The two products with a matrix: entry `(r, c)` is the sum over `k` of row `r` times column `c` -/

theorem v78_at (r : Fin 50000) (c : Fin 256) :
    val_main_v78 (F := Ideal) x0 x1 x2 x3 x4 x5 x6 x7 x8 x9 (ix2 r c)
      = ∑ k : Fin 256, val_main_v77 (F := Ideal) x0 x1 x2 x3 x4 x5 x6 x7 x8 (ix2 r k) * x9 (ix2 k c) := by
  rw [val_main_v78_apply]
  refine Finset.sum_congr rfl fun k _ => ?_
  rw [show lidx_main_v78 (ix2 r c) k = ix2 r k from funext fun a => Fin.ext (by match a with | ⟨0, _⟩ => rfl | ⟨1, _⟩ => rfl),
    show ridx_main_v78 (ix2 r c) k = ix2 k c from funext fun a => Fin.ext (by match a with | ⟨0, _⟩ => rfl | ⟨1, _⟩ => rfl)]

theorem v82_at (r : Fin 50000) (c : Fin 256) :
    val_main_v82 (F := Ideal) x0 x1 x2 x3 x4 x5 x6 x7 x8 x11 (ix2 r c)
      = ∑ k : Fin 256, val_main_v58 (F := Ideal) x0 x1 x2 x3 x4 x5 x6 x7 x8 (ix2 r k) * x11 (ix2 k c) := by
  rw [val_main_v82_apply]
  refine Finset.sum_congr rfl fun k _ => ?_
  rw [show lidx_main_v82 (ix2 r c) k = ix2 r k from funext fun a => Fin.ext (by match a with | ⟨0, _⟩ => rfl | ⟨1, _⟩ => rfl),
    show ridx_main_v82 (ix2 r c) k = ix2 k c from funext fun a => Fin.ext (by match a with | ⟨0, _⟩ => rfl | ⟨1, _⟩ => rfl)]

/-! ### The three vectors broadcast along the rows: entry `(r, c)` is the vector's entry `c` -/

theorem v80_at (r : Fin 50000) (c : Fin 256) : val_main_v80 (F := Ideal) x10 (ix2 r c) = x10 (ix1 c) := by
  rw [val_main_v80_apply, val_main_v79_apply]
  exact congrArg x10 (funext fun a => Fin.ext (by match a with | ⟨0, _⟩ => rfl))

theorem v103_at (r : Fin 50000) (c : Fin 256) : val_main_v103 (F := Ideal) x12 (ix2 r c) = x12 (ix1 c) := by
  rw [val_main_v103_apply, val_main_v102_apply]
  exact congrArg x12 (funext fun a => Fin.ext (by match a with | ⟨0, _⟩ => rfl))

theorem v106_at (r : Fin 50000) (c : Fin 256) : val_main_v106 (F := Ideal) x13 (ix2 r c) = x13 (ix1 c) := by
  rw [val_main_v106_apply, val_main_v105_apply]
  exact congrArg x13 (funext fun a => Fin.ext (by match a with | ⟨0, _⟩ => rfl))

/-! ### The convolution, its row mean, the deviations, their mean square, the scale -/

/-- The convolution at `(r, c)`: both products and the bias, grouped as `linRow` groups them. -/
theorem v83_at (r : Fin 50000) (c : Fin 256) :
    val_main_v83 (F := Ideal) x0 x1 x2 x3 x4 x5 x6 x7 x8 x9 x10 x11 (ix2 r c) = pre2 x0 x1 x2 x3 x4 x5 x6 x7 x8 x9 x10 x11 r c := by
  rw [val_main_v83_apply, val_main_v81_apply, v78_at, v80_at, v82_at]
  rfl

/-- The row mean, held in a one-column array: the zero-started sum of row `r` over `256`. -/
theorem v87_at (r : Fin 50000) (j : Fin 1) :
    val_main_v87 (F := Ideal) x0 x1 x2 x3 x4 x5 x6 x7 x8 x9 x10 x11 (ix2 r j) = mean256 (pre2 x0 x1 x2 x3 x4 x5 x6 x7 x8 x9 x10 x11 r) := by
  rw [val_main_v87_apply, val_main_v85_apply, val_main_v86_apply, val_main_v84_apply, val_main_cst_15_apply,
    val_main_cst_16_apply]
  simp only [Ideal.hostDivf_def, Ideal.ofBits_def, Ideal.ofBits_zero_f32, zero_add]
  refine mean256_of (Finset.sum_congr rfl fun k _ => ?_)
  rw [show idx_main_v84 (idx_main_v85 (ix2 r j)) k = ix2 r k from funext fun a => Fin.ext (by match a with | ⟨0, _⟩ => rfl | ⟨1, _⟩ => rfl), v83_at]

/-- The deviation from the row mean (the copy that is squared). -/
theorem v89_at (r : Fin 50000) (c : Fin 256) :
    val_main_v89 (F := Ideal) x0 x1 x2 x3 x4 x5 x6 x7 x8 x9 x10 x11 (ix2 r c) = pre2 x0 x1 x2 x3 x4 x5 x6 x7 x8 x9 x10 x11 r c - mean256 (pre2 x0 x1 x2 x3 x4 x5 x6 x7 x8 x9 x10 x11 r) := by
  rw [val_main_v89_apply, val_main_v88_apply,
    show idx_main_v88 (ix2 r c) = ix2 r (0 : Fin 1) from funext fun a => Fin.ext (by match a with | ⟨0, _⟩ => rfl | ⟨1, _⟩ => rfl), v87_at, v83_at]
  rfl

/-- The deviation from the row mean (the copy that is scaled). -/
theorem v96_at (r : Fin 50000) (c : Fin 256) :
    val_main_v96 (F := Ideal) x0 x1 x2 x3 x4 x5 x6 x7 x8 x9 x10 x11 (ix2 r c) = pre2 x0 x1 x2 x3 x4 x5 x6 x7 x8 x9 x10 x11 r c - mean256 (pre2 x0 x1 x2 x3 x4 x5 x6 x7 x8 x9 x10 x11 r) := by
  rw [val_main_v96_apply, val_main_v95_apply,
    show idx_main_v95 (ix2 r c) = ix2 r (0 : Fin 1) from funext fun a => Fin.ext (by match a with | ⟨0, _⟩ => rfl | ⟨1, _⟩ => rfl), v87_at, v83_at]
  rfl

/-- The mean squared deviation of row `r`. -/
theorem v94_at (r : Fin 50000) (j : Fin 1) :
    val_main_v94 (F := Ideal) x0 x1 x2 x3 x4 x5 x6 x7 x8 x9 x10 x11 (ix2 r j)
      = mean256 (fun k => (pre2 x0 x1 x2 x3 x4 x5 x6 x7 x8 x9 x10 x11 r k - mean256 (pre2 x0 x1 x2 x3 x4 x5 x6 x7 x8 x9 x10 x11 r))
          * (pre2 x0 x1 x2 x3 x4 x5 x6 x7 x8 x9 x10 x11 r k - mean256 (pre2 x0 x1 x2 x3 x4 x5 x6 x7 x8 x9 x10 x11 r))) := by
  rw [val_main_v94_apply, val_main_v92_apply, val_main_v93_apply, val_main_v91_apply, val_main_cst_17_apply,
    val_main_cst_18_apply]
  simp only [Ideal.hostDivf_def, Ideal.ofBits_def, Ideal.ofBits_zero_f32, zero_add]
  refine mean256_of (Finset.sum_congr rfl fun k _ => ?_)
  rw [show idx_main_v91 (idx_main_v92 (ix2 r j)) k = ix2 r k from funext fun a => Fin.ext (by match a with | ⟨0, _⟩ => rfl | ⟨1, _⟩ => rfl), val_main_v90_apply, v89_at]
  rfl

/-- The scale of row `r`: the reciprocal square root of the mean squared deviation plus the small constant. -/
theorem v100_at (r : Fin 50000) (c : Fin 256) :
    val_main_v100 (F := Ideal) x0 x1 x2 x3 x4 x5 x6 x7 x8 x9 x10 x11 (ix2 r c)
      = Ideal.rsqrt (mean256 (fun k => (pre2 x0 x1 x2 x3 x4 x5 x6 x7 x8 x9 x10 x11 r k - mean256 (pre2 x0 x1 x2 x3 x4 x5 x6 x7 x8 x9 x10 x11 r))
          * (pre2 x0 x1 x2 x3 x4 x5 x6 x7 x8 x9 x10 x11 r k - mean256 (pre2 x0 x1 x2 x3 x4 x5 x6 x7 x8 x9 x10 x11 r))) + Ideal.ofBits .f32 0x3727C5AC#32) := by
  rw [val_main_v100_apply, show idx_main_v100 (ix2 r c) = ix2 r (0 : Fin 1) from funext fun a => Fin.ext (by match a with | ⟨0, _⟩ => rfl | ⟨1, _⟩ => rfl),
    val_main_v99_apply, val_main_v98_apply, v94_at, val_main_v97_apply, val_main_cst_19_apply]
  rfl

/-- The normalised row after the affine map. -/
theorem v107_at (r : Fin 50000) (c : Fin 256) :
    val_main_v107 (F := Ideal) x0 x1 x2 x3 x4 x5 x6 x7 x8 x9 x10 x11 x12 x13 (ix2 r c) = normRow (pre2 x0 x1 x2 x3 x4 x5 x6 x7 x8 x9 x10 x11 r) (vecOf x12) (vecOf x13) c := by
  rw [val_main_v107_apply, val_main_v104_apply, val_main_v101_apply, v96_at, v100_at, v103_at, v106_at]
  rfl

/-- The array the clip compares with: the zero word everywhere. -/
theorem relu2_zero_at (i : S50000x256.Idx) :
    val_main_call1_v0 (F := Ideal) i = Ideal.ofBits .f32 0x00000000#32 := by
  rw [val_main_call1_v0_apply, val_main_call1_cst_apply]
  rfl

/-- The reference's second layer is `layer2` of the first layer's neighbour means and the first layer's result. -/
theorem layer2_eq :
    val_main_v109 (F := Ideal) x0 x1 x2 x3 x4 x5 x6 x7 x8 x9 x10 x11 x12 x13
      = layer2 (val_main_v77 (F := Ideal) x0 x1 x2 x3 x4 x5 x6 x7 x8) (val_main_v58 (F := Ideal) x0 x1 x2 x3 x4 x5 x6 x7 x8) (matOf x9) (matOf x11)
          (vecOf x10) (vecOf x12) (vecOf x13) := by
  funext i
  obtain ⟨r, c, rfl⟩ : ∃ (r : Fin 50000) (c : Fin 256), i = ix2 r c := ⟨i 0, i 1, eq_ix2 i⟩
  rw [val_main_v109_apply, val_main_v108_apply, v107_at, relu2_zero_at, layer2_at]
  rfl

end Cert.Sage.Ref

end
-- ==== Proof.RefLayer3.lean ====
/-
  The reference's third layer is the specification's `layer3`: the bare convolution.

  Two products of an array of rows of 256 entries with a matrix of 128 columns and a bias broadcast along the rows;
  entry `(r, c)` is `linRow` of row `r` of the second layer's neighbour means and of the second layer's result.
-/
import proofs.«109566_j317827580339_1_alg».proof.Proof.Gen.ReferenceIdeal.Read
import proofs.«109566_j317827580339_1_alg».proof.Proof.Spec
import proofs.«109566_j317827580339_1_alg».proof.Proof.RefCommon
import Idealize.ShloMosaic.PureOps.Ideal.Laws
import Idealize.ShloMosaic.Lib.ValueIdx

noncomputable section

open scoped BigOperators

namespace Cert.Sage.Ref

open Cert.ReferenceIdeal Cert.ReferenceIdeal.Read Cert.Sage Idealize.ShloMosaic Idealize.ShloMosaic.ValueIdx

variable (x0 : (⟨S50000x128, .f32⟩ : BufTy).Contents (Elt Ideal)) (x1 : (⟨S2x640000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S256, .f32⟩ : BufTy).Contents (Elt Ideal)) (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S256x128, .f32⟩ : BufTy).Contents (Elt Ideal))

/-! ### The two products with a matrix: entry `(r, c)` is the sum over `k` of row `r` times column `c` -/

theorem v129_at (r : Fin 50000) (c : Fin 128) :
    val_main_v129 (F := Ideal) x0 x1 x2 x3 x4 x5 x6 x7 x8 x9 x10 x11 x12 x13 x14 (ix2 r c)
      = ∑ k : Fin 256, val_main_v128 (F := Ideal) x0 x1 x2 x3 x4 x5 x6 x7 x8 x9 x10 x11 x12 x13 (ix2 r k) * x14 (ix2 k c) := by
  rw [val_main_v129_apply]
  refine Finset.sum_congr rfl fun k _ => ?_
  rw [show lidx_main_v129 (ix2 r c) k = ix2 r k from funext fun a => Fin.ext (by match a with | ⟨0, _⟩ => rfl | ⟨1, _⟩ => rfl),
    show ridx_main_v129 (ix2 r c) k = ix2 k c from funext fun a => Fin.ext (by match a with | ⟨0, _⟩ => rfl | ⟨1, _⟩ => rfl)]

theorem v133_at (r : Fin 50000) (c : Fin 128) :
    val_main_v133 (F := Ideal) x0 x1 x2 x3 x4 x5 x6 x7 x8 x9 x10 x11 x12 x13 x16 (ix2 r c)
      = ∑ k : Fin 256, val_main_v109 (F := Ideal) x0 x1 x2 x3 x4 x5 x6 x7 x8 x9 x10 x11 x12 x13 (ix2 r k) * x16 (ix2 k c) := by
  rw [val_main_v133_apply]
  refine Finset.sum_congr rfl fun k _ => ?_
  rw [show lidx_main_v133 (ix2 r c) k = ix2 r k from funext fun a => Fin.ext (by match a with | ⟨0, _⟩ => rfl | ⟨1, _⟩ => rfl),
    show ridx_main_v133 (ix2 r c) k = ix2 k c from funext fun a => Fin.ext (by match a with | ⟨0, _⟩ => rfl | ⟨1, _⟩ => rfl)]

/-- The bias broadcast along the rows: entry `(r, c)` is the bias's entry `c`. -/
theorem v131_at (r : Fin 50000) (c : Fin 128) : val_main_v131 (F := Ideal) x15 (ix2 r c) = x15 (ix1 c) := by
  rw [val_main_v131_apply, val_main_v130_apply]
  exact congrArg x15 (funext fun a => Fin.ext (by match a with | ⟨0, _⟩ => rfl))

/-- The reference's third layer is `layer3` of the second layer's neighbour means and the second layer's result. -/
theorem layer3_eq :
    val_main_v134 (F := Ideal) x0 x1 x2 x3 x4 x5 x6 x7 x8 x9 x10 x11 x12 x13 x14 x15 x16
      = layer3 (val_main_v128 (F := Ideal) x0 x1 x2 x3 x4 x5 x6 x7 x8 x9 x10 x11 x12 x13) (val_main_v109 (F := Ideal) x0 x1 x2 x3 x4 x5 x6 x7 x8 x9 x10 x11 x12 x13) (matOf x14) (matOf x16)
          (vecOf x15) := by
  funext i
  obtain ⟨r, c, rfl⟩ : ∃ (r : Fin 50000) (c : Fin 128), i = ix2 r c := ⟨i 0, i 1, eq_ix2 i⟩
  rw [val_main_v134_apply, val_main_v132_apply, v129_at, v131_at, v133_at, layer3_at]
  rfl

end Cert.Sage.Ref

end
-- ==== Proof.RefValue.lean ====
/-
  The reference program computes the network.

  Its three neighbour-mean chains are, operation for operation, the shared neighbour mean of the array they read (the
  edge list's two rows, the shifted source column, the gathered rows summed into their destinations, the clipped
  degree), so each is that function by unfolding names alone, and is never opened.  With the three layers read as
  `layer1`, `layer2`, `layer3`, the program's result is the composition the specification calls `network`.
-/
import proofs.«109566_j317827580339_1_alg».proof.Proof.Gen.ReferenceIdeal.Read
import proofs.«109566_j317827580339_1_alg».proof.Proof.Spec
import proofs.«109566_j317827580339_1_alg».proof.Proof.Aggregate
import proofs.«109566_j317827580339_1_alg».proof.Proof.Network
import proofs.«109566_j317827580339_1_alg».proof.Proof.RefLayer1
import proofs.«109566_j317827580339_1_alg».proof.Proof.RefLayer2
import proofs.«109566_j317827580339_1_alg».proof.Proof.RefLayer3

noncomputable section

namespace Cert.Sage.Ref

open Cert.ReferenceIdeal Cert.ReferenceIdeal.Read Cert.Sage Idealize.ShloMosaic Idealize.ShloMosaic.ValueIdx

variable (x0 : (⟨S50000x128, .f32⟩ : BufTy).Contents (Elt Ideal)) (x1 : (⟨S2x640000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256, .f32⟩ : BufTy).Contents (Elt Ideal)) (x6 : (⟨S256, .f32⟩ : BufTy).Contents (Elt Ideal)) (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S256x128, .f32⟩ : BufTy).Contents (Elt Ideal))

/-- The first neighbour-mean chain is the neighbour mean of the features. -/
theorem agg1_eq : val_main_v22 (F := Ideal) x0 x1 = agg128 x0 x1 := rfl

/-- The second neighbour-mean chain is the neighbour mean of the first layer's result. -/
theorem agg2_eq :
    val_main_v77 (F := Ideal) x0 x1 x2 x3 x4 x5 x6 x7 x8 = agg256 (val_main_v58 (F := Ideal) x0 x1 x2 x3 x4 x5 x6 x7 x8) x1 := rfl

/-- The third neighbour-mean chain is the neighbour mean of the second layer's result. -/
theorem agg3_eq :
    val_main_v128 (F := Ideal) x0 x1 x2 x3 x4 x5 x6 x7 x8 x9 x10 x11 x12 x13 = agg256 (val_main_v109 (F := Ideal) x0 x1 x2 x3 x4 x5 x6 x7 x8 x9 x10 x11 x12 x13) x1 := rfl

/-- The reference's result is the network of its seventeen arguments. -/
theorem value :
    val_main_v134 (F := Ideal) x0 x1 x2 x3 x4 x5 x6 x7 x8 x9 x10 x11 x12 x13 x14 x15 x16 = network x0 x1 x2 x3 x4 x5 x6 x7 x8 x9 x10 x11 x12 x13 x14 x15 x16 := by
  unfold network output hidden2 hidden1
  rw [layer3_eq, agg3_eq, layer2_eq, agg2_eq, layer1_eq, agg1_eq]

end Cert.Sage.Ref

end
-- ==== Proof.lean ====
/-
  Both programs are a three-layer graph network on 50000 nodes and 640000 edges.  Each layer takes, for every node,
  the mean of its in-neighbours' rows (the same host operations in both programs), and combines it with the node's
  own row: `(mean · Wl + b) + row · Wr`.  The first two layers then normalise each row of 256 entries, apply an affine
  map, clip at zero and add a skip term.  The kernel does the dense part in three regions of 25 tiles of 2000 rows;
  the reference does it with whole-array host operations.

  At the exact instance a change of float format is the identity and every sum is the textbook sum, and since an
  output entry depends only on its own row, a tile and the whole array are read by the same row function: no sum is
  regrouped, so the inputs' finiteness is never used.  Both programs are shown to end at ONE function of the
  seventeen arguments, `Cert.Sage.network`: the kernel boundary by boundary through its three regions
  (`Cert.Sage.Kernel.run`), the reference operation by operation (`Cert.Sage.Ref.value`).  The kernel's idealization
  rewrote no operation, so there is nothing to preserve; the three frames are the programs' runs.
-/
import proofs.«109566_j317827580339_1_alg».proof.Defs
import proofs.«109566_j317827580339_1_alg».proof.Proof.Gen.Kernel
import proofs.«109566_j317827580339_1_alg».proof.Proof.Gen.Kernel.Skeleton
import proofs.«109566_j317827580339_1_alg».proof.Proof.Gen.Kernel.Launch
import proofs.«109566_j317827580339_1_alg».proof.Proof.Gen.Kernel.Points
import proofs.«109566_j317827580339_1_alg».proof.Proof.Gen.Kernel.Frame
import proofs.«109566_j317827580339_1_alg».proof.Proof.Gen.KernelIdeal
import proofs.«109566_j317827580339_1_alg».proof.Proof.Gen.KernelIdeal.Skeleton
import proofs.«109566_j317827580339_1_alg».proof.Proof.Gen.KernelIdeal.Launch
import proofs.«109566_j317827580339_1_alg».proof.Proof.Gen.KernelIdeal.Points
import proofs.«109566_j317827580339_1_alg».proof.Proof.Gen.KernelIdeal.Frame
import proofs.«109566_j317827580339_1_alg».proof.Proof.Gen.ReferenceIdeal
import proofs.«109566_j317827580339_1_alg».proof.Proof.Gen.ReferenceIdeal.Run
import proofs.«109566_j317827580339_1_alg».proof.Proof.Gen.ReferenceIdeal.Read
import proofs.«109566_j317827580339_1_alg».proof.Proof.Gen.Pre_finite_inputs
import proofs.«109566_j317827580339_1_alg».proof.Proof.KernelValue
import proofs.«109566_j317827580339_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the seventeen arguments both programs end with their result at the network of those
    arguments. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v134_eq, Cert.Sage.Ref.value, a0, a1, a2, a3, a4, a5, a6, a7, a8, a9, a10, a11, a12, a13, a14, a15, a16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
